-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x60 : Shape := ⟨2, ![500000, 60]⟩
abbrev S1000x60 : Shape := ⟨2, ![1000, 60]⟩
abbrev S100000x60 : Shape := ⟨2, ![100000, 60]⟩
abbrev S500000x1 : Shape := ⟨2, ![500000, 1]⟩
abbrev S1000x1 : Shape := ⟨2, ![1000, 1]⟩
abbrev S65536 : Shape := ⟨1, ![65536]⟩
abbrev S65536x24 : Shape := ⟨2, ![65536, 24]⟩
abbrev S_ : Shape := ⟨0, ![]⟩

class Facts : Prop where
  bcast_S_S500000x60 : S_.BroadcastsInDim S500000x60 (![] : Fin 0 → Fin S500000x60.rank)
  reducesTo_S500000x60_S_d0_1 : S500000x60.ReducesTo [0, 1] S_
  h_S_ : 0 < S_.numel
  bcast_S_S1000x60 : S_.BroadcastsInDim S1000x60 (![] : Fin 0 → Fin S1000x60.rank)
  reducesTo_S1000x60_S_d0_1 : S1000x60.ReducesTo [0, 1] S_
  bcast_S_S100000x60 : S_.BroadcastsInDim S100000x60 (![] : Fin 0 → Fin S100000x60.rank)
  reducesTo_S100000x60_S_d0_1 : S100000x60.ReducesTo [0, 1] S_
  bcast_S_S500000x1 : S_.BroadcastsInDim S500000x1 (![] : Fin 0 → Fin S500000x1.rank)
  reducesTo_S500000x1_S_d0_1 : S500000x1.ReducesTo [0, 1] S_
  bcast_S_S1000x1 : S_.BroadcastsInDim S1000x1 (![] : Fin 0 → Fin S1000x1.rank)
  reducesTo_S1000x1_S_d0_1 : S1000x1.ReducesTo [0, 1] S_

variable [Facts]

def fn_part1 {F : FTy → Type} [FloatOps F] (main_arg4 : FVec F S1000x1 .f32) (main_v13 : IVec S_ 1) (main_v16 : IVec S500000x1 1) : IVec S_ 1 :=
  let main_c_5 : IVec S_ 1 := constantI S_ 1 1#1
  let main_v17 : IVec S_ 1 := (fun x v => Host.reduce IntOp.andi x v reducesTo_S500000x1_S_d0_1 h_S_) main_v16 main_c_5
  let main_v18 : IVec S_ 1 := andi main_v13 main_v17
  let main_v19 : FVec F S1000x1 .f32 := Host.absf main_arg4
  let main_cst_6 : FVec F S_ .f32 := constant S_ .f32 0x7F800000#32
  let main_v20 : FVec F S1000x1 .f32 := broadcastInDim S1000x1 ![] bcast_S_S1000x1 main_cst_6
  let main_v21 : IVec S1000x1 1 := cmpf .olt main_v19 main_v20
  let main_c_7 : IVec S_ 1 := constantI S_ 1 1#1
  let main_v22 : IVec S_ 1 := (fun x v => Host.reduce IntOp.andi x v reducesTo_S1000x1_S_d0_1 h_S_) main_v21 main_c_7
  let main_v23 : IVec S_ 1 := andi main_v18 main_v22
  main_v23

def fn {F : FTy → Type} [FloatOps F] (main_arg0 : FVec F S500000x60 .f32) (main_arg1 : FVec F S1000x60 .f32) (main_arg2 : FVec F S100000x60 .f32) (main_arg3 : FVec F S500000x1 .f32) (main_arg4 : FVec F S1000x1 .f32) (main_arg5 : IVec S65536 32) (main_arg6 : IVec S65536 32) (main_arg7 : IVec S65536 32) (main_arg8 : IVec S65536x24 32) (main_arg9 : IVec S65536x24 32) (main_arg10 : IVec S65536x24 32) (main_arg11 : IVec S65536x24 32) (main_arg12 : IVec S65536x24 32) (main_arg13 : IVec S65536x24 32) : IVec S_ 1 :=
  let main_v0 : FVec F S500000x60 .f32 := Host.absf main_arg0
  let main_cst : FVec F S_ .f32 := constant S_ .f32 0x7F800000#32
  let main_v1 : FVec F S500000x60 .f32 := broadcastInDim S500000x60 ![] bcast_S_S500000x60 main_cst
  let main_v2 : IVec S500000x60 1 := cmpf .olt main_v0 main_v1
  let main_c : IVec S_ 1 := constantI S_ 1 1#1
  let main_v3 : IVec S_ 1 := (fun x v => Host.reduce IntOp.andi x v reducesTo_S500000x60_S_d0_1 h_S_) main_v2 main_c
  let main_v4 : FVec F S1000x60 .f32 := Host.absf main_arg1
  let main_cst_0 : FVec F S_ .f32 := constant S_ .f32 0x7F800000#32
  let main_v5 : FVec F S1000x60 .f32 := broadcastInDim S1000x60 ![] bcast_S_S1000x60 main_cst_0
  let main_v6 : IVec S1000x60 1 := cmpf .olt main_v4 main_v5
  let main_c_1 : IVec S_ 1 := constantI S_ 1 1#1
  let main_v7 : IVec S_ 1 := (fun x v => Host.reduce IntOp.andi x v reducesTo_S1000x60_S_d0_1 h_S_) main_v6 main_c_1
  let main_v8 : IVec S_ 1 := andi main_v3 main_v7
  let main_v9 : FVec F S100000x60 .f32 := Host.absf main_arg2
  let main_cst_2 : FVec F S_ .f32 := constant S_ .f32 0x7F800000#32
  let main_v10 : FVec F S100000x60 .f32 := broadcastInDim S100000x60 ![] bcast_S_S100000x60 main_cst_2
  let main_v11 : IVec S100000x60 1 := cmpf .olt main_v9 main_v10
  let main_c_3 : IVec S_ 1 := constantI S_ 1 1#1
  let main_v12 : IVec S_ 1 := (fun x v => Host.reduce IntOp.andi x v reducesTo_S100000x60_S_d0_1 h_S_) main_v11 main_c_3
  let main_v13 : IVec S_ 1 := andi main_v8 main_v12
  let main_v14 : FVec F S500000x1 .f32 := Host.absf main_arg3
  let main_cst_4 : FVec F S_ .f32 := constant S_ .f32 0x7F800000#32
  let main_v15 : FVec F S500000x1 .f32 := broadcastInDim S500000x1 ![] bcast_S_S500000x1 main_cst_4
  let main_v16 : IVec S500000x1 1 := cmpf .olt main_v14 main_v15
  fn_part1 (F := F) main_arg4 main_v13 main_v16
-- ==== Kernel.lean ====
abbrev S500000x60 : Shape := ⟨2, ![500000, 60]⟩
abbrev S1000x60 : Shape := ⟨2, ![1000, 60]⟩
abbrev S100000x60 : Shape := ⟨2, ![100000, 60]⟩
abbrev S500000x1 : Shape := ⟨2, ![500000, 1]⟩
abbrev S1000x1 : Shape := ⟨2, ![1000, 1]⟩
abbrev S65536 : Shape := ⟨1, ![65536]⟩
abbrev S65536x24 : Shape := ⟨2, ![65536, 24]⟩
abbrev S_ : Shape := ⟨0, ![]⟩
abbrev S65536x1 : Shape := ⟨2, ![65536, 1]⟩
abbrev S65536x60 : Shape := ⟨2, ![65536, 60]⟩
abbrev S65536x24x1 : Shape := ⟨3, ![65536, 24, 1]⟩
abbrev S65536x24x60 : Shape := ⟨3, ![65536, 24, 60]⟩
abbrev S65536x2 : Shape := ⟨2, ![65536, 2]⟩
abbrev S65536x3 : Shape := ⟨2, ![65536, 3]⟩
abbrev S256x60 : Shape := ⟨2, ![256, 60]⟩
abbrev S256x24x60 : Shape := ⟨3, ![256, 24, 60]⟩
abbrev S256x24 : Shape := ⟨2, ![256, 24]⟩
abbrev S256x3 : Shape := ⟨2, ![256, 3]⟩
abbrev S256 : Shape := ⟨1, ![256]⟩
abbrev S256x1 : Shape := ⟨2, ![256, 1]⟩
abbrev S256x24x1 : Shape := ⟨3, ![256, 24, 1]⟩

abbrev nBuf : Space → Nat
  | .hbm => 116
  | .vmem => 22
  | .smem => 0
  | _ => 0

abbrev bufTy : (tb : Table) → Fin (tcTables nBuf tb) → BufTy
  | .hbm, ⟨0, _⟩ => ⟨S500000x60, .f32⟩
  | .hbm, ⟨1, _⟩ => ⟨S1000x60, .f32⟩
  | .hbm, ⟨2, _⟩ => ⟨S100000x60, .f32⟩
  | .hbm, ⟨3, _⟩ => ⟨S500000x1, .f32⟩
  | .hbm, ⟨4, _⟩ => ⟨S1000x1, .f32⟩
  | .hbm, ⟨5, _⟩ => ⟨S65536, .i32⟩
  | .hbm, ⟨6, _⟩ => ⟨S65536, .i32⟩
  | .hbm, ⟨7, _⟩ => ⟨S65536, .i32⟩
  | .hbm, ⟨8, _⟩ => ⟨S65536x24, .i32⟩
  | .hbm, ⟨9, _⟩ => ⟨S65536x24, .i32⟩
  | .hbm, ⟨10, _⟩ => ⟨S65536x24, .i32⟩
  | .hbm, ⟨11, _⟩ => ⟨S65536x24, .i32⟩
  | .hbm, ⟨12, _⟩ => ⟨S65536x24, .i32⟩
  | .hbm, ⟨13, _⟩ => ⟨S65536x24, .i32⟩
  | .hbm, ⟨14, _⟩ => ⟨S100000x60, .bf16⟩
  | .hbm, ⟨15, _⟩ => ⟨S_, .i32⟩
  | .hbm, ⟨16, _⟩ => ⟨S65536, .i32⟩
  | .hbm, ⟨17, _⟩ => ⟨S65536, .i1⟩
  | .hbm, ⟨18, _⟩ => ⟨S_, .i32⟩
  | .hbm, ⟨19, _⟩ => ⟨S65536, .i32⟩
  | .hbm, ⟨20, _⟩ => ⟨S65536, .i32⟩
  | .hbm, ⟨21, _⟩ => ⟨S65536, .i32⟩
  | .hbm, ⟨22, _⟩ => ⟨S65536x1, .i32⟩
  | .hbm, ⟨23, _⟩ => ⟨S65536x60, .f32⟩
  | .hbm, ⟨24, _⟩ => ⟨S_, .i32⟩
  | .hbm, ⟨25, _⟩ => ⟨S65536, .i32⟩
  | .hbm, ⟨26, _⟩ => ⟨S65536, .i1⟩
  | .hbm, ⟨27, _⟩ => ⟨S_, .i32⟩
  | .hbm, ⟨28, _⟩ => ⟨S65536, .i32⟩
  | .hbm, ⟨29, _⟩ => ⟨S65536, .i32⟩
  | .hbm, ⟨30, _⟩ => ⟨S65536, .i32⟩
  | .hbm, ⟨31, _⟩ => ⟨S65536x1, .i32⟩
  | .hbm, ⟨32, _⟩ => ⟨S65536x60, .f32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536x60, .f32⟩
  | .hbm, ⟨42, _⟩ => ⟨S_, .i32⟩
  | .hbm, ⟨43, _⟩ => ⟨S65536x24, .i32⟩
  | .hbm, ⟨44, _⟩ => ⟨S65536x24, .i1⟩
  | .hbm, ⟨45, _⟩ => ⟨S_, .i32⟩
  | .hbm, ⟨46, _⟩ => ⟨S65536x24, .i32⟩
  | .hbm, ⟨47, _⟩ => ⟨S65536x24, .i32⟩
  | .hbm, ⟨48, _⟩ => ⟨S65536x24, .i32⟩
  | .hbm, ⟨49, _⟩ => ⟨S65536x24x1, .i32⟩
  | .hbm, ⟨50, _⟩ => ⟨S65536x24x60, .bf16⟩
  | .hbm, ⟨51, _⟩ => ⟨S_, .i32⟩
  | .hbm, ⟨52, _⟩ => ⟨S65536x24, .i32⟩
  | .hbm, ⟨53, _⟩ => ⟨S65536x24, .i1⟩
  | .hbm, ⟨54, _⟩ => ⟨S_, .i32⟩
  | .hbm, ⟨55, _⟩ => ⟨S65536x24, .i32⟩
  | .hbm, ⟨56, _⟩ => ⟨S65536x24, .i32⟩
  | .hbm, ⟨57, _⟩ => ⟨S65536x24, .i32⟩
  | .hbm, ⟨58, _⟩ => ⟨S65536x24x1, .i32⟩
  | .hbm, ⟨59, _⟩ => ⟨S65536x24x60, .bf16⟩
  | .hbm, ⟨60, _⟩ => ⟨S_, .i32⟩
  | .hbm, ⟨61, _⟩ => ⟨S65536x24, .i32⟩
  | .hbm, ⟨62, _⟩ => ⟨S65536x24, .i1⟩
  | .hbm, ⟨63, _⟩ => ⟨S_, .i32⟩
  | .hbm, ⟨64, _⟩ => ⟨S65536x24, .i32⟩
  | .hbm, ⟨65, _⟩ => ⟨S65536x24, .i32⟩
  | .hbm, ⟨66, _⟩ => ⟨S65536x24, .i32⟩
  | .hbm, ⟨67, _⟩ => ⟨S65536x24x1, .i32⟩
  | .hbm, ⟨68, _⟩ => ⟨S65536x24x60, .bf16⟩
  | .hbm, ⟨69, _⟩ => ⟨S_, .i32⟩
  | .hbm, ⟨70, _⟩ => ⟨S65536, .i32⟩
  | .hbm, ⟨71, _⟩ => ⟨S65536, .i1⟩
  | .hbm, ⟨72, _⟩ => ⟨S_, .i32⟩
  | .hbm, ⟨73, _⟩ => ⟨S65536, .i32⟩
  | .hbm, ⟨74, _⟩ => ⟨S65536, .i32⟩
  | .hbm, ⟨75, _⟩ => ⟨S65536, .i32⟩
  | .hbm, ⟨76, _⟩ => ⟨S_, .i32⟩
  | .hbm, ⟨77, _⟩ => ⟨S65536, .i32⟩
  | .hbm, ⟨78, _⟩ => ⟨S65536, .i32⟩
  | .hbm, ⟨79, _⟩ => ⟨S65536x1, .i32⟩
  | .hbm, ⟨80, _⟩ => ⟨S65536x1, .i32⟩
  | .hbm, ⟨81, _⟩ => ⟨S65536x2, .i32⟩
  | .hbm, ⟨82, _⟩ => ⟨S65536, .f32⟩
  | .hbm, ⟨83, _⟩ => ⟨S_, .i32⟩
  | .hbm, ⟨84, _⟩ => ⟨S65536, .i32⟩
  | .hbm, ⟨85, _⟩ => ⟨S65536, .i1⟩
  | .hbm, ⟨86, _⟩ => ⟨S_, .i32⟩
  | .hbm, ⟨87, _⟩ => ⟨S65536, .i32⟩
  | .hbm, ⟨88, _⟩ => ⟨S65536, .i32⟩
  | .hbm, ⟨89, _⟩ => ⟨S65536, .i32⟩
  | .hbm, ⟨90, _⟩ => ⟨S_, .i32⟩
  | .hbm, ⟨91, _⟩ => ⟨S65536, .i32⟩
  | .hbm, ⟨92, _⟩ => ⟨S65536, .i32⟩
  | .hbm, ⟨93, _⟩ => ⟨S65536x1, .i32⟩
  | .hbm, ⟨94, _⟩ => ⟨S65536x1, .i32⟩
  | .hbm, ⟨95, _⟩ => ⟨S65536x2, .i32⟩
  | .hbm, ⟨96, _⟩ => ⟨S65536, .f32⟩
  | .hbm, ⟨97, _⟩ => ⟨S_, .i32⟩
  | .hbm, ⟨98, _⟩ => ⟨S65536, .i32⟩
  | .hbm, ⟨99, _⟩ => ⟨S65536, .i1⟩
  | .hbm, ⟨100, _⟩ => ⟨S_, .i32⟩
  | .hbm, ⟨101, _⟩ => ⟨S65536, .i32⟩
  | .hbm, ⟨102, _⟩ => ⟨S65536, .i32⟩
  | .hbm, ⟨103, _⟩ => ⟨S65536, .i32⟩
  | .hbm, ⟨104, _⟩ => ⟨S_, .i32⟩
  | .hbm, ⟨105, _⟩ => ⟨S65536, .i32⟩
  | .hbm, ⟨106, _⟩ => ⟨S65536, .i32⟩
  | .hbm, ⟨107, _⟩ => ⟨S65536x1, .i32⟩
  | .hbm, ⟨108, _⟩ => ⟨S65536x1, .i32⟩
  | .hbm, ⟨109, _⟩ => ⟨S65536x2, .i32⟩
  | .hbm, ⟨110, _⟩ => ⟨S65536, .f32⟩
  | .hbm, ⟨111, _⟩ => ⟨S65536x1, .f32⟩
  | .hbm, ⟨112, _⟩ => ⟨S65536x1, .f32⟩
  | .hbm, ⟨113, _⟩ => ⟨S65536x1, .f32⟩
  | .hbm, ⟨114, _⟩ => ⟨S65536x3, .f32⟩
  | .hbm, ⟨115, _⟩ => ⟨S65536, .f32⟩
  | .local _ .vmem, ⟨0, _⟩ => ⟨S256x60, .f32⟩
  | .local _ .vmem, ⟨1, _⟩ => ⟨S256x60, .f32⟩
  | .local _ .vmem, ⟨2, _⟩ => ⟨S256x60, .f32⟩
  | .local _ .vmem, ⟨3, _⟩ => ⟨S256x60, .f32⟩
  | .local _ .vmem, ⟨4, _⟩ => ⟨S256x60, .f32⟩
  | .local _ .vmem, ⟨5, _⟩ => ⟨S256x60, .f32⟩
  | .local _ .vmem, ⟨6, _⟩ => ⟨S256x24x60, .bf16⟩
  | .local _ .vmem, ⟨7, _⟩ => ⟨S256x24x60, .bf16⟩
  | .local _ .vmem, ⟨8, _⟩ => ⟨S256x24x60, .bf16⟩
  | .local _ .vmem, ⟨9, _⟩ => ⟨S256x24x60, .bf16⟩
  | .local _ .vmem, ⟨10, _⟩ => ⟨S256x24x60, .bf16⟩
  | .local _ .vmem, ⟨11, _⟩ => ⟨S256x24x60, .bf16⟩
  | .local _ .vmem, ⟨12, _⟩ => ⟨S256x24, .i32⟩
  | .local _ .vmem, ⟨13, _⟩ => ⟨S256x24, .i32⟩
  | .local _ .vmem, ⟨14, _⟩ => ⟨S256x24, .i32⟩
  | .local _ .vmem, ⟨15, _⟩ => ⟨S256x24, .i32⟩
  | .local _ .vmem, ⟨16, _⟩ => ⟨S256x24, .i32⟩
  | .local _ .vmem, ⟨17, _⟩ => ⟨S256x24, .i32⟩
  | .local _ .vmem, ⟨18, _⟩ => ⟨S256x3, .f32⟩
  | .local _ .vmem, ⟨19, _⟩ => ⟨S256x3, .f32⟩
  | .local _ .vmem, ⟨20, _⟩ => ⟨S256, .f32⟩
  | .local _ .vmem, ⟨21, _⟩ => ⟨S256, .f32⟩
  | _, _ => ⟨S500000x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_5 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_9 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_11 : Ref sig .tc := ⟨.hbm, 69, rfl⟩
abbrev main_v43 : Ref sig .tc := ⟨.hbm, 70, rfl⟩
abbrev main_v44 : Ref sig .tc := ⟨.hbm, 71, rfl⟩
abbrev main_c_12 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_13 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_14 : Ref sig .tc := ⟨.hbm, 83, rfl⟩
abbrev main_v54 : Ref sig .tc := ⟨.hbm, 84, rfl⟩
abbrev main_v55 : Ref sig .tc := ⟨.hbm, 85, rfl⟩
abbrev main_c_15 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_16 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_17 : Ref sig .tc := ⟨.hbm, 97, rfl⟩
abbrev main_v65 : Ref sig .tc := ⟨.hbm, 98, rfl⟩
abbrev main_v66 : Ref sig .tc := ⟨.hbm, 99, rfl⟩
abbrev main_c_18 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_c_19 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x60 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x60 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x60 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x24x60 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x24x60 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x24x60 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x24 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x24 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x24 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  bcast_S_S65536 : S_.BroadcastsInDim S65536 (![] : Fin 0 → Fin S65536.rank)
  bcast_S65536_S65536x1_0 : S65536.BroadcastsInDim S65536x1 (![0] : Fin 1 → Fin S65536x1.rank)
  bcast_S_S65536x24 : S_.BroadcastsInDim S65536x24 (![] : Fin 0 → Fin S65536x24.rank)
  bcast_S65536x24_S65536x24x1_0_1 : S65536x24.BroadcastsInDim S65536x24x1 (![0, 1] : Fin 2 → Fin S65536x24x1.rank)
  concatenates_S65536x1_S65536x1_S65536x2_d1 : Shape.Concatenates [S65536x1, S65536x1] S65536x2 1
  concatenates_S65536x1_S65536x1_S65536x1_S65536x3_d1 : Shape.Concatenates [S65536x1, S65536x1, S65536x1] S65536x3 1
  inb_S256x60_S256x60_0_0 : ∀ a, (![0, 0] : Fin 2 → Nat) a + S256x60.size a ≤ S256x60.size a
  h_S256x60 : 0 < S256x60.numel
  shapeCasts_S256x60_S256x60 : S256x60.ShapeCasts S256x60
  reduces_S256x60_S256 : S256x60.Reduces [1] S256
  shapeCasts_S256_S256x1 : S256.ShapeCasts S256x1
  broadcasts_S256x1_S256x60 : S256x1.Broadcasts S256x60
  inb_S256x24x60_S256x24x60_0_0_0 : ∀ a, (![0, 0, 0] : Fin 3 → Nat) a + S256x24x60.size a ≤ S256x24x60.size a
  h_S256x24x60 : 0 < S256x24x60.numel
  shapeCasts_S256x24x60_S256x24x60 : S256x24x60.ShapeCasts S256x24x60
  reduces_S256x24x60_S256x24 : S256x24x60.Reduces [2] S256x24
  shapeCasts_S256x24_S256x24x1 : S256x24.ShapeCasts S256x24x1
  broadcasts_S256x24x1_S256x24x60 : S256x24x1.Broadcasts S256x24x60
  inb_S256x24_S256x24_0_0 : ∀ a, (![0, 0] : Fin 2 → Nat) a + S256x24.size a ≤ S256x24.size a
  h_S256x24 : 0 < S256x24.numel
  reduces_S256x24x1_S256x1 : S256x24x1.Reduces [1] S256x1
  reduces_S256x24x60_S256x60 : S256x24x60.Reduces [1] S256x60
  inb_S256x3_S256x3_0_0 : ∀ a, (![0, 0] : Fin 2 → Nat) a + S256x3.size a ≤ S256x3.size a
  h_S256x3 : 0 < S256x3.numel
  shapeCasts_S256x3_S256x3 : S256x3.ShapeCasts S256x3
  reduces_S256x3_S256 : S256x3.Reduces [1] S256
  shapeCasts_S256x1_S256 : S256x1.ShapeCasts S256
  inb_S256_S256_0 : ∀ a, (![0] : Fin 1 → Nat) a + S256.size a ≤ S256.size a
  h_S256 : 0 < S256.numel
  gather_S500000x60_S65536x1_S65536x60_1_0_n_n_0_1_160_wf : GatherDims.WF S500000x60 S65536x1 S65536x60 [1] [0] [] [0] [] 1 ![1, 60]
  gather_S1000x60_S65536x1_S65536x60_1_0_n_n_0_1_160_wf : GatherDims.WF S1000x60 S65536x1 S65536x60 [1] [0] [] [0] [] 1 ![1, 60]
  gather_S100000x60_S65536x24x1_S65536x24x60_2_0_n_n_0_2_160_wf : GatherDims.WF S100000x60 S65536x24x1 S65536x24x60 [2] [0] [] [0] [] 2 ![1, 60]
  gather_S500000x1_S65536x2_S65536_n_01_n_n_01_1_11_wf : GatherDims.WF S500000x1 S65536x2 S65536 [] [0, 1] [] [0, 1] [] 1 ![1, 1]
  gather_S1000x1_S65536x2_S65536_n_01_n_n_01_1_11_wf : GatherDims.WF S1000x1 S65536x2 S65536 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x60.size a ≤ S65536x60.size a
  hwx0_0 : ∀ i : grid0.Coords, EltTy.bits .f32 = 32 ∨ (Rect.block (s := S65536x60) S256x60.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x60.size a ≤ S65536x60.size a
  hwx0_1 : ∀ i : grid0.Coords, EltTy.bits .f32 = 32 ∨ (Rect.block (s := S65536x60) S256x60.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x60.size a ≤ S65536x60.size a
  hwx0_2 : ∀ i : grid0.Coords, EltTy.bits .f32 = 32 ∨ (Rect.block (s := S65536x60) S256x60.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x24x60.size a ≤ S65536x24x60.size a
  hwx0_3 : ∀ i : grid0.Coords, EltTy.bits .bf16 = 32 ∨ (Rect.block (s := S65536x24x60) S256x24x60.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x24x60.size a ≤ S65536x24x60.size a
  hwx0_4 : ∀ i : grid0.Coords, EltTy.bits .bf16 = 32 ∨ (Rect.block (s := S65536x24x60) S256x24x60.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x24x60.size a ≤ S65536x24x60.size a
  hwx0_5 : ∀ i : grid0.Coords, EltTy.bits .bf16 = 32 ∨ (Rect.block (s := S65536x24x60) S256x24x60.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x24.size a ≤ S65536x24.size a
  hwx0_6 : ∀ i : grid0.Coords, EltTy.bits .i32 = 32 ∨ (Rect.block (s := S65536x24) S256x24.size (cc0_transform_6 i) (hinb0_6 i)).WholeWords (EltTy.packing .i32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x24.size a ≤ S65536x24.size a
  hwx0_7 : ∀ i : grid0.Coords, EltTy.bits .i32 = 32 ∨ (Rect.block (s := S65536x24) S256x24.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x24.size a ≤ S65536x24.size a
  hwx0_8 : ∀ i : grid0.Coords, EltTy.bits .i32 = 32 ∨ (Rect.block (s := S65536x24) S256x24.size (cc0_transform_8 i) (hinb0_8 i)).WholeWords (EltTy.packing .i32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x3.size a ≤ S65536x3.size a
  hwx0_9 : ∀ i : grid0.Coords, EltTy.bits .f32 = 32 ∨ (Rect.block (s := S65536x3) S256x3.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S65536.size a
  hwx0_10 : ∀ i : grid0.Coords, EltTy.bits .f32 = 32 ∨ (Rect.block (s := S65536) S256.size (cc0_transform_10 i) (hinb0_10 i)).WholeWords (EltTy.packing .f32)

variable [Facts₀]

def gather_S500000x60_S65536x1_S65536x60_1_0_n_n_0_1_160 : GatherDims S500000x60 S65536x1 S65536x60 where
  offsetDims := [1]
  collapsedSliceDims := [0]
  operandBatchingDims := []
  startIndicesBatchingDims := []
  startIndexMap := [0]
  indexVectorDim := 1
  sliceSizes := ![1, 60]
  wf := gather_S500000x60_S65536x1_S65536x60_1_0_n_n_0_1_160_wf
def gather_S1000x60_S65536x1_S65536x60_1_0_n_n_0_1_160 : GatherDims S1000x60 S65536x1 S65536x60 where
  offsetDims := [1]
  collapsedSliceDims := [0]
  operandBatchingDims := []
  startIndicesBatchingDims := []
  startIndexMap := [0]
  indexVectorDim := 1
  sliceSizes := ![1, 60]
  wf := gather_S1000x60_S65536x1_S65536x60_1_0_n_n_0_1_160_wf
def gather_S100000x60_S65536x24x1_S65536x24x60_2_0_n_n_0_2_160 : GatherDims S100000x60 S65536x24x1 S65536x24x60 where
  offsetDims := [2]
  collapsedSliceDims := [0]
  operandBatchingDims := []
  startIndicesBatchingDims := []
  startIndexMap := [0]
  indexVectorDim := 2
  sliceSizes := ![1, 60]
  wf := gather_S100000x60_S65536x24x1_S65536x24x60_2_0_n_n_0_2_160_wf
def gather_S500000x1_S65536x2_S65536_n_01_n_n_01_1_11 : GatherDims S500000x1 S65536x2 S65536 where
  offsetDims := []
  collapsedSliceDims := [0, 1]
  operandBatchingDims := []
  startIndicesBatchingDims := []
  startIndexMap := [0, 1]
  indexVectorDim := 1
  sliceSizes := ![1, 1]
  wf := gather_S500000x1_S65536x2_S65536_n_01_n_n_01_1_11_wf
def gather_S1000x1_S65536x2_S65536_n_01_n_n_01_1_11 : GatherDims S1000x1 S65536x2 S65536 where
  offsetDims := []
  collapsedSliceDims := [0, 1]
  operandBatchingDims := []
  startIndicesBatchingDims := []
  startIndexMap := [0, 1]
  indexVectorDim := 1
  sliceSizes := ![1, 1]
  wf := gather_S1000x1_S65536x2_S65536_n_01_n_n_01_1_11_wf

abbrev win0_0 : Pipeline.Window sig grid0 :=
  Pipeline.Window.ofSpec (Memref.whole main_v7) S256x60.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S256x60.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S256x60.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S256x24x60.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v35) S256x24x60.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S256x24x60.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg11) S256x24.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg12) S256x24.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg13) S256x24.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v79) S256x3.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v80) S256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S500000x60 : Shape := ⟨2, ![500000, 60]⟩
abbrev S1000x60 : Shape := ⟨2, ![1000, 60]⟩
abbrev S100000x60 : Shape := ⟨2, ![100000, 60]⟩
abbrev S500000x1 : Shape := ⟨2, ![500000, 1]⟩
abbrev S1000x1 : Shape := ⟨2, ![1000, 1]⟩
abbrev S65536 : Shape := ⟨1, ![65536]⟩
abbrev S65536x24 : Shape := ⟨2, ![65536, 24]⟩
abbrev S_ : Shape := ⟨0, ![]⟩
abbrev S65536x1 : Shape := ⟨2, ![65536, 1]⟩
abbrev S65536x60 : Shape := ⟨2, ![65536, 60]⟩
abbrev S65536x24x1 : Shape := ⟨3, ![65536, 24, 1]⟩
abbrev S65536x24x60 : Shape := ⟨3, ![65536, 24, 60]⟩
abbrev S65536x2 : Shape := ⟨2, ![65536, 2]⟩

abbrev nBuf : Space → Nat
  | .hbm => 222
  | .vmem => 0
  | .smem => 0
  | _ => 0

abbrev hbmTy0_0 (i : Nat) : BufTy := match i % 128 with
  | 0 => ⟨S500000x60, .f32⟩
  | 1 => ⟨S1000x60, .f32⟩
  | 2 => ⟨S100000x60, .f32⟩
  | 3 => ⟨S500000x1, .f32⟩
  | 4 => ⟨S1000x1, .f32⟩
  | 5 => ⟨S65536, .i32⟩
  | 6 => ⟨S65536, .i32⟩
  | 7 => ⟨S65536, .i32⟩
  | 8 => ⟨S65536x24, .i32⟩
  | 9 => ⟨S65536x24, .i32⟩
  | 10 => ⟨S65536x24, .i32⟩
  | 11 => ⟨S65536x24, .i32⟩
  | 12 => ⟨S65536x24, .i32⟩
  | 13 => ⟨S65536x24, .i32⟩
  | 14 => ⟨S_, .i32⟩
  | 15 => ⟨S65536, .i32⟩
  | 16 => ⟨S65536, .i1⟩
  | 17 => ⟨S_, .i32⟩
  | 18 => ⟨S65536, .i32⟩
  | 19 => ⟨S65536, .i32⟩
  | 20 => ⟨S65536, .i32⟩
  | 21 => ⟨S65536x1, .i32⟩
  | 22 => ⟨S65536x60, .f32⟩
  | 23 => ⟨S65536x60, .f32⟩
  | 24 => ⟨S_, .f32⟩
  | 25 => ⟨S65536, .f32⟩
  | 26 => ⟨S65536x1, .f32⟩
  | 27 => ⟨S65536x1, .f32⟩
  | 28 => ⟨S_, .f32⟩
  | 29 => ⟨S65536x1, .f32⟩
  | 30 => ⟨S65536x1, .f32⟩
  | 31 => ⟨S65536x60, .f32⟩
  | 32 => ⟨S65536x60, .f32⟩
  | 33 => ⟨S_, .i32⟩
  | 34 => ⟨S65536, .i32⟩
  | 35 => ⟨S65536, .i1⟩
  | 36 => ⟨S_, .i32⟩
  | 37 => ⟨S65536, .i32⟩
  | 38 => ⟨S65536, .i32⟩
  | 39 => ⟨S65536, .i32⟩
  | 40 => ⟨S65536x1, .i32⟩
  | 41 => ⟨S65536x60, .f32⟩
  | 42 => ⟨S65536x60, .f32⟩
  | 43 => ⟨S_, .f32⟩
  | 44 => ⟨S65536, .f32⟩
  | 45 => ⟨S65536x1, .f32⟩
  | 46 => ⟨S65536x1, .f32⟩
  | 47 => ⟨S_, .f32⟩
  | 48 => ⟨S65536x1, .f32⟩
  | 49 => ⟨S65536x1, .f32⟩
  | 50 => ⟨S65536x60, .f32⟩
  | 51 => ⟨S65536x60, .f32⟩
  | 52 => ⟨S_, .i32⟩
  | 53 => ⟨S65536, .i32⟩
  | 54 => ⟨S65536, .i1⟩
  | 55 => ⟨S_, .i32⟩
  | 56 => ⟨S65536, .i32⟩
  | 57 => ⟨S65536, .i32⟩
  | 58 => ⟨S65536, .i32⟩
  | 59 => ⟨S65536x1, .i32⟩
  | 60 => ⟨S65536x60, .f32⟩
  | 61 => ⟨S65536x60, .f32⟩
  | 62 => ⟨S_, .f32⟩
  | 63 => ⟨S65536, .f32⟩
  | 64 => ⟨S65536x1, .f32⟩
  | 65 => ⟨S65536x1, .f32⟩
  | 66 => ⟨S_, .f32⟩
  | 67 => ⟨S65536x1, .f32⟩
  | 68 => ⟨S65536x1, .f32⟩
  | 69 => ⟨S65536x60, .f32⟩
  | 70 => ⟨S65536x60, .f32⟩
  | 71 => ⟨S_, .i32⟩
  | 72 => ⟨S65536x24, .i32⟩
  | 73 => ⟨S65536x24, .i1⟩
  | 74 => ⟨S_, .i32⟩
  | 75 => ⟨S65536x24, .i32⟩
  | 76 => ⟨S65536x24, .i32⟩
  | 77 => ⟨S65536x24, .i32⟩
  | 78 => ⟨S65536x24x1, .i32⟩
  | 79 => ⟨S65536x24x60, .f32⟩
  | 80 => ⟨S65536x24x60, .f32⟩
  | 81 => ⟨S_, .f32⟩
  | 82 => ⟨S65536x24, .f32⟩
  | 83 => ⟨S65536x24x1, .f32⟩
  | 84 => ⟨S65536x24x1, .f32⟩
  | 85 => ⟨S_, .f32⟩
  | 86 => ⟨S65536x24x1, .f32⟩
  | 87 => ⟨S65536x24x1, .f32⟩
  | 88 => ⟨S65536x24x60, .f32⟩
  | 89 => ⟨S65536x24x60, .f32⟩
  | 90 => ⟨S65536x24, .f32⟩
  | 91 => ⟨S65536x24x1, .f32⟩
  | 92 => ⟨S_, .f32⟩
  | 93 => ⟨S65536x1, .f32⟩
  | 94 => ⟨S_, .f32⟩
  | 95 => ⟨S65536x1, .f32⟩
  | 96 => ⟨S65536x1, .f32⟩
  | 97 => ⟨S65536x24x60, .f32⟩
  | 98 => ⟨S65536x24x60, .f32⟩
  | 99 => ⟨S_, .f32⟩
  | 100 => ⟨S65536x60, .f32⟩
  | 101 => ⟨S65536x60, .f32⟩
  | 102 => ⟨S65536x60, .f32⟩
  | 103 => ⟨S65536x60, .f32⟩
  | 104 => ⟨S_, .i32⟩
  | 105 => ⟨S65536x24, .i32⟩
  | 106 => ⟨S65536x24, .i1⟩
  | 107 => ⟨S_, .i32⟩
  | 108 => ⟨S65536x24, .i32⟩
  | 109 => ⟨S65536x24, .i32⟩
  | 110 => ⟨S65536x24, .i32⟩
  | 111 => ⟨S65536x24x1, .i32⟩
  | 112 => ⟨S65536x24x60, .f32⟩
  | 113 => ⟨S65536x24x60, .f32⟩
  | 114 => ⟨S_, .f32⟩
  | 115 => ⟨S65536x24, .f32⟩
  | 116 => ⟨S65536x24x1, .f32⟩
  | 117 => ⟨S65536x24x1, .f32⟩
  | 118 => ⟨S_, .f32⟩
  | 119 => ⟨S65536x24x1, .f32⟩
  | 120 => ⟨S65536x24x1, .f32⟩
  | 121 => ⟨S65536x24x60, .f32⟩
  | 122 => ⟨S65536x24x60, .f32⟩
  | 123 => ⟨S65536x24, .f32⟩
  | 124 => ⟨S65536x24x1, .f32⟩
  | 125 => ⟨S_, .f32⟩
  | 126 => ⟨S65536x1, .f32⟩
  | 127 => ⟨S_, .f32⟩
  | _ => ⟨S500000x60, .f32⟩

abbrev hbmTy0_1 (i : Nat) : BufTy := match i % 128 with
  | 0 => ⟨S65536x1, .f32⟩
  | 1 => ⟨S65536x1, .f32⟩
  | 2 => ⟨S65536x24x60, .f32⟩
  | 3 => ⟨S65536x24x60, .f32⟩
  | 4 => ⟨S_, .f32⟩
  | 5 => ⟨S65536x60, .f32⟩
  | 6 => ⟨S65536x60, .f32⟩
  | 7 => ⟨S65536x60, .f32⟩
  | 8 => ⟨S65536x60, .f32⟩
  | 9 => ⟨S_, .i32⟩
  | 10 => ⟨S65536x24, .i32⟩
  | 11 => ⟨S65536x24, .i1⟩
  | 12 => ⟨S_, .i32⟩
  | 13 => ⟨S65536x24, .i32⟩
  | 14 => ⟨S65536x24, .i32⟩
  | 15 => ⟨S65536x24, .i32⟩
  | 16 => ⟨S65536x24x1, .i32⟩
  | 17 => ⟨S65536x24x60, .f32⟩
  | 18 => ⟨S65536x24x60, .f32⟩
  | 19 => ⟨S_, .f32⟩
  | 20 => ⟨S65536x24, .f32⟩
  | 21 => ⟨S65536x24x1, .f32⟩
  | 22 => ⟨S65536x24x1, .f32⟩
  | 23 => ⟨S_, .f32⟩
  | 24 => ⟨S65536x24x1, .f32⟩
  | 25 => ⟨S65536x24x1, .f32⟩
  | 26 => ⟨S65536x24x60, .f32⟩
  | 27 => ⟨S65536x24x60, .f32⟩
  | 28 => ⟨S65536x24, .f32⟩
  | 29 => ⟨S65536x24x1, .f32⟩
  | 30 => ⟨S_, .f32⟩
  | 31 => ⟨S65536x1, .f32⟩
  | 32 => ⟨S_, .f32⟩
  | 33 => ⟨S65536x1, .f32⟩
  | 34 => ⟨S65536x1, .f32⟩
  | 35 => ⟨S65536x24x60, .f32⟩
  | 36 => ⟨S65536x24x60, .f32⟩
  | 37 => ⟨S_, .f32⟩
  | 38 => ⟨S65536x60, .f32⟩
  | 39 => ⟨S65536x60, .f32⟩
  | 40 => ⟨S65536x60, .f32⟩
  | 41 => ⟨S65536x60, .f32⟩
  | 42 => ⟨S65536x60, .f32⟩
  | 43 => ⟨S65536x60, .f32⟩
  | 44 => ⟨S65536x60, .f32⟩
  | 45 => ⟨S_, .f32⟩
  | 46 => ⟨S65536, .f32⟩
  | 47 => ⟨S65536, .f32⟩
  | 48 => ⟨S65536, .f32⟩
  | 49 => ⟨S_, .i32⟩
  | 50 => ⟨S65536, .i32⟩
  | 51 => ⟨S65536, .i1⟩
  | 52 => ⟨S_, .i32⟩
  | 53 => ⟨S65536, .i32⟩
  | 54 => ⟨S65536, .i32⟩
  | 55 => ⟨S65536, .i32⟩
  | 56 => ⟨S_, .i32⟩
  | 57 => ⟨S65536, .i32⟩
  | 58 => ⟨S65536, .i32⟩
  | 59 => ⟨S65536x1, .i32⟩
  | 60 => ⟨S65536x1, .i32⟩
  | 61 => ⟨S65536x2, .i32⟩
  | 62 => ⟨S65536, .f32⟩
  | 63 => ⟨S65536, .f32⟩
  | 64 => ⟨S_, .i32⟩
  | 65 => ⟨S65536, .i32⟩
  | 66 => ⟨S65536, .i1⟩
  | 67 => ⟨S_, .i32⟩
  | 68 => ⟨S65536, .i32⟩
  | 69 => ⟨S65536, .i32⟩
  | 70 => ⟨S65536, .i32⟩
  | 71 => ⟨S_, .i32⟩
  | 72 => ⟨S65536, .i32⟩
  | 73 => ⟨S65536, .i32⟩
  | 74 => ⟨S65536x1, .i32⟩
  | 75 => ⟨S65536x1, .i32⟩
  | 76 => ⟨S65536x2, .i32⟩
  | 77 => ⟨S65536, .f32⟩
  | 78 => ⟨S65536, .f32⟩
  | 79 => ⟨S_, .i32⟩
  | 80 => ⟨S65536, .i32⟩
  | 81 => ⟨S65536, .i1⟩
  | 82 => ⟨S_, .i32⟩
  | 83 => ⟨S65536, .i32⟩
  | 84 => ⟨S65536, .i32⟩
  | 85 => ⟨S65536, .i32⟩
  | 86 => ⟨S_, .i32⟩
  | 87 => ⟨S65536, .i32⟩
  | 88 => ⟨S65536, .i32⟩
  | 89 => ⟨S65536x1, .i32⟩
  | 90 => ⟨S65536x1, .i32⟩
  | 91 => ⟨S65536x2, .i32⟩
  | 92 => ⟨S65536, .f32⟩
  | 93 => ⟨S65536, .f32⟩
  | _ => ⟨S500000x60, .f32⟩

abbrev hbmTy (i : Nat) : BufTy := match i / 128 with
  | 0 => hbmTy0_0 i
  | 1 => hbmTy0_1 i
  | _ => ⟨S500000x60, .f32⟩

abbrev bufTy : (tb : Table) → Fin (tcTables nBuf tb) → BufTy
  | .hbm, ⟨i, _⟩ => hbmTy i
  | _, _ => ⟨S500000x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call0_v0 : Ref sig .tc := ⟨.hbm, 23, rfl⟩
abbrev main_call0_cst : Ref sig .tc := ⟨.hbm, 24, rfl⟩
abbrev main_call0_v1 : Ref sig .tc := ⟨.hbm, 25, rfl⟩
abbrev main_call0_v2 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_call1_v2 : Ref sig .tc := ⟨.hbm, 45, rfl⟩
abbrev main_v19 : Ref sig .tc := ⟨.hbm, 46, rfl⟩
abbrev main_cst_3 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_call2_v0 : Ref sig .tc := ⟨.hbm, 61, rfl⟩
abbrev main_call2_cst : Ref sig .tc := ⟨.hbm, 62, rfl⟩
abbrev main_call2_v1 : Ref sig .tc := ⟨.hbm, 63, rfl⟩
abbrev main_call2_v2 : Ref sig .tc := ⟨.hbm, 64, rfl⟩
abbrev main_v31 : Ref sig .tc := ⟨.hbm, 65, rfl⟩
abbrev main_cst_6 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_c_7 : Ref sig .tc := ⟨.hbm, 71, rfl⟩
abbrev main_v36 : Ref sig .tc := ⟨.hbm, 72, rfl⟩
abbrev main_v37 : Ref sig .tc := ⟨.hbm, 73, rfl⟩
abbrev main_c_8 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_call3_v0 : Ref sig .tc := ⟨.hbm, 80, rfl⟩
abbrev main_call3_cst : Ref sig .tc := ⟨.hbm, 81, rfl⟩
abbrev main_call3_v1 : Ref sig .tc := ⟨.hbm, 82, rfl⟩
abbrev main_call3_v2 : Ref sig .tc := ⟨.hbm, 83, rfl⟩
abbrev main_v43 : Ref sig .tc := ⟨.hbm, 84, rfl⟩
abbrev main_cst_9 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_cst_10 : Ref sig .tc := ⟨.hbm, 92, rfl⟩
abbrev main_v50 : Ref sig .tc := ⟨.hbm, 93, rfl⟩
abbrev main_cst_11 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_cst_12 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_c_13 : Ref sig .tc := ⟨.hbm, 104, rfl⟩
abbrev main_v59 : Ref sig .tc := ⟨.hbm, 105, rfl⟩
abbrev main_v60 : Ref sig .tc := ⟨.hbm, 106, rfl⟩
abbrev main_c_14 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_call4_v0 : Ref sig .tc := ⟨.hbm, 113, rfl⟩
abbrev main_call4_cst : Ref sig .tc := ⟨.hbm, 114, rfl⟩
abbrev main_call4_v1 : Ref sig .tc := ⟨.hbm, 115, rfl⟩
abbrev main_call4_v2 : Ref sig .tc := ⟨.hbm, 116, rfl⟩
abbrev main_v66 : Ref sig .tc := ⟨.hbm, 117, rfl⟩
abbrev main_cst_15 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_16 : Ref sig .tc := ⟨.hbm, 125, rfl⟩
abbrev main_v73 : Ref sig .tc := ⟨.hbm, 126, rfl⟩
abbrev main_cst_17 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_18 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_c_19 : Ref sig .tc := ⟨.hbm, 137, rfl⟩
abbrev main_v82 : Ref sig .tc := ⟨.hbm, 138, rfl⟩
abbrev main_v83 : Ref sig .tc := ⟨.hbm, 139, rfl⟩
abbrev main_c_20 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_call5_v0 : Ref sig .tc := ⟨.hbm, 146, rfl⟩
abbrev main_call5_cst : Ref sig .tc := ⟨.hbm, 147, rfl⟩
abbrev main_call5_v1 : Ref sig .tc := ⟨.hbm, 148, rfl⟩
abbrev main_call5_v2 : Ref sig .tc := ⟨.hbm, 149, rfl⟩
abbrev main_v89 : Ref sig .tc := ⟨.hbm, 150, rfl⟩
abbrev main_cst_21 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_cst_22 : Ref sig .tc := ⟨.hbm, 158, rfl⟩
abbrev main_v96 : Ref sig .tc := ⟨.hbm, 159, rfl⟩
abbrev main_cst_23 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_cst_24 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_call6_v0 : Ref sig .tc := ⟨.hbm, 172, rfl⟩
abbrev main_call6_cst : Ref sig .tc := ⟨.hbm, 173, rfl⟩
abbrev main_call6_v1 : Ref sig .tc := ⟨.hbm, 174, rfl⟩
abbrev main_v107 : Ref sig .tc := ⟨.hbm, 175, rfl⟩
abbrev main_v108 : Ref sig .tc := ⟨.hbm, 176, rfl⟩
abbrev main_c_25 : Ref sig .tc := ⟨.hbm, 177, rfl⟩
abbrev main_v109 : Ref sig .tc := ⟨.hbm, 178, rfl⟩
abbrev main_v110 : Ref sig .tc := ⟨.hbm, 179, rfl⟩
abbrev main_c_26 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_c_27 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_c_28 : Ref sig .tc := ⟨.hbm, 192, rfl⟩
abbrev main_v121 : Ref sig .tc := ⟨.hbm, 193, rfl⟩
abbrev main_v122 : Ref sig .tc := ⟨.hbm, 194, rfl⟩
abbrev main_c_29 : Ref sig .tc := ⟨.hbm, 195, rfl⟩
abbrev main_v123 : Ref sig .tc := ⟨.hbm, 196, rfl⟩
abbrev main_v124 : Ref sig .tc := ⟨.hbm, 197, rfl⟩
abbrev main_v125 : Ref sig .tc := ⟨.hbm, 198, rfl⟩
abbrev main_c_30 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_c_31 : Ref sig .tc := ⟨.hbm, 207, rfl⟩
abbrev main_v133 : Ref sig .tc := ⟨.hbm, 208, rfl⟩
abbrev main_v134 : Ref sig .tc := ⟨.hbm, 209, rfl⟩
abbrev main_c_32 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_c_33 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩

abbrev nD : Nat := 1
abbrev τ : Topo := Topo.v7x

variable {F : FTy → Type} [FloatOps F]

class Facts₀ : Prop where
  bcast_S_S65536 : S_.BroadcastsInDim S65536 (![] : Fin 0 → Fin S65536.rank)
  bcast_S65536_S65536x1_0 : S65536.BroadcastsInDim S65536x1 (![0] : Fin 1 → Fin S65536x1.rank)
  reducesTo_S65536x60_S65536_d1 : S65536x60.ReducesTo [1] S65536
  h_S_ : 0 < S_.numel
  bcast_S_S65536x1 : S_.BroadcastsInDim S65536x1 (![] : Fin 0 → Fin S65536x1.rank)
  bcast_S65536x1_S65536x60_0_1 : S65536x1.BroadcastsInDim S65536x60 (![0, 1] : Fin 2 → Fin S65536x60.rank)
  bcast_S_S65536x24 : S_.BroadcastsInDim S65536x24 (![] : Fin 0 → Fin S65536x24.rank)
  bcast_S65536x24_S65536x24x1_0_1 : S65536x24.BroadcastsInDim S65536x24x1 (![0, 1] : Fin 2 → Fin S65536x24x1.rank)
  reducesTo_S65536x24x60_S65536x24_d2 : S65536x24x60.ReducesTo [2] S65536x24
  bcast_S_S65536x24x1 : S_.BroadcastsInDim S65536x24x1 (![] : Fin 0 → Fin S65536x24x1.rank)
  bcast_S65536x24x1_S65536x24x60_0_1_2 : S65536x24x1.BroadcastsInDim S65536x24x60 (![0, 1, 2] : Fin 3 → Fin S65536x24x60.rank)
  reducesTo_S65536x24x1_S65536x1_d1 : S65536x24x1.ReducesTo [1] S65536x1
  reducesTo_S65536x24x60_S65536x60_d1 : S65536x24x60.ReducesTo [1] S65536x60
  concatenates_S65536x1_S65536x1_S65536x2_d1 : Shape.Concatenates [S65536x1, S65536x1] S65536x2 1
  gather_S500000x60_S65536x1_S65536x60_1_0_n_n_0_1_160_wf : GatherDims.WF S500000x60 S65536x1 S65536x60 [1] [0] [] [0] [] 1 ![1, 60]
  gather_S1000x60_S65536x1_S65536x60_1_0_n_n_0_1_160_wf : GatherDims.WF S1000x60 S65536x1 S65536x60 [1] [0] [] [0] [] 1 ![1, 60]
  gather_S100000x60_S65536x24x1_S65536x24x60_2_0_n_n_0_2_160_wf : GatherDims.WF S100000x60 S65536x24x1 S65536x24x60 [2] [0] [] [0] [] 2 ![1, 60]
  gather_S500000x1_S65536x2_S65536_n_01_n_n_01_1_11_wf : GatherDims.WF S500000x1 S65536x2 S65536 [] [0, 1] [] [0, 1] [] 1 ![1, 1]
  gather_S1000x1_S65536x2_S65536_n_01_n_n_01_1_11_wf : GatherDims.WF S1000x1 S65536x2 S65536 [] [0, 1] [] [0, 1] [] 1 ![1, 1]

variable [Facts₀]

def gather_S500000x60_S65536x1_S65536x60_1_0_n_n_0_1_160 : GatherDims S500000x60 S65536x1 S65536x60 where
  offsetDims := [1]
  collapsedSliceDims := [0]
  operandBatchingDims := []
  startIndicesBatchingDims := []
  startIndexMap := [0]
  indexVectorDim := 1
  sliceSizes := ![1, 60]
  wf := gather_S500000x60_S65536x1_S65536x60_1_0_n_n_0_1_160_wf
def gather_S1000x60_S65536x1_S65536x60_1_0_n_n_0_1_160 : GatherDims S1000x60 S65536x1 S65536x60 where
  offsetDims := [1]
  collapsedSliceDims := [0]
  operandBatchingDims := []
  startIndicesBatchingDims := []
  startIndexMap := [0]
  indexVectorDim := 1
  sliceSizes := ![1, 60]
  wf := gather_S1000x60_S65536x1_S65536x60_1_0_n_n_0_1_160_wf
def gather_S100000x60_S65536x24x1_S65536x24x60_2_0_n_n_0_2_160 : GatherDims S100000x60 S65536x24x1 S65536x24x60 where
  offsetDims := [2]
  collapsedSliceDims := [0]
  operandBatchingDims := []
  startIndicesBatchingDims := []
  startIndexMap := [0]
  indexVectorDim := 2
  sliceSizes := ![1, 60]
  wf := gather_S100000x60_S65536x24x1_S65536x24x60_2_0_n_n_0_2_160_wf
def gather_S500000x1_S65536x2_S65536_n_01_n_n_01_1_11 : GatherDims S500000x1 S65536x2 S65536 where
  offsetDims := []
  collapsedSliceDims := [0, 1]
  operandBatchingDims := []
  startIndicesBatchingDims := []
  startIndexMap := [0, 1]
  indexVectorDim := 1
  sliceSizes := ![1, 1]
  wf := gather_S500000x1_S65536x2_S65536_n_01_n_n_01_1_11_wf
def gather_S1000x1_S65536x2_S65536_n_01_n_n_01_1_11 : GatherDims S1000x1 S65536x2 S65536 where
  offsetDims := []
  collapsedSliceDims := [0, 1]
  operandBatchingDims := []
  startIndicesBatchingDims := []
  startIndexMap := [0, 1]
  indexVectorDim := 1
  sliceSizes := ![1, 1]
  wf := gather_S1000x1_S65536x2_S65536_n_01_n_n_01_1_11_wf

class Facts : Prop extends Facts₀ where

variable [Facts]
-- ==== Proof.FrameBits.lean ====
/-
  The frame of `Cert.Kernel`: @main runs to the end without a fault and leaves its fourteen argument arrays as
  it found them.

  @main is a straight line of 101 host operations (index clamps, gathers, broadcasts, concatenations), each
  writing one fresh intermediate array, followed by ONE pipelined region over a grid of 256 points. At a
  point the region hands the body one block of each of ten input arrays (256 rows of each) and one block of
  the output array; the body reads every input block whole, computes one value of 256 numbers from them, and
  overwrites the whole output block with it. So: no host operation writes an argument; the region only READS
  its ten input arrays (three of which are arguments) and WRITES the one result array, which is no argument;
  every other array is untouched by the region. This module states what the region finds in each array (`V`),
  what a block is (`iblk`), what the body leaves in the output block (`stored`), proves the body's
  specification at a generic grid point, and assembles the run of @main from it.
-/
import proofs.«160819_j36352603193502_2_alg».proof.Proof.Gen.Kernel.Launch
import proofs.«160819_j36352603193502_2_alg».proof.Proof.Gen.Kernel.Skeleton
import proofs.«160819_j36352603193502_2_alg».proof.Proof.Gen.Kernel.Points
import Idealize.ShloMosaic.Lib.Pipeline.FrameBody
import Idealize.ShloMosaic.Lib.Ring
import Idealize.ShloMosaic.Lib.Tactic

-- the line of 101 host operations is a literal list: walking it recurses once per operation
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s arrays hold when the region is entered: the launch contents rewritten by the 101 host
    operations in order, each replacing the one array it defines. -/
abbrev V (c : Dev nD) (b : Ref sig .tc) : Buf (Elt F) ((c : Thread nD τ).loc b) :=
  StableHlo.after hostOps0 (fun b => m (c, b)) b

/-- No host operation allocates: each writes an array the program already names. -/
theorem hostOps0_fresh : (hostOps0 : List (HloOp τ sig (Elt F))).Forall fun op => op.fresh = ∅ := by
  simp only [List.Forall]; repeat' constructor

/-- @main is the host line and then the region, so the region starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays the host line defines, in the order it defines them: one per operation, none of them an argument. -/
abbrev hostWritten : List (Ref sig .tc) :=
  [main_v0, main_c, main_v1, main_v2, main_c_0, main_v3, main_v4, main_v5, main_v6, main_v7, main_c_1, main_v8, main_v9, main_c_2, main_v10, main_v11, main_v12, main_v13, main_v14, main_c_3, main_v15, main_v16, main_c_4, main_v17, main_v18, main_v19, main_v20, main_v21, main_c_5, main_v22, main_v23, main_c_6, main_v24, main_v25, main_v26, main_v27, main_v28, main_c_7, main_v29, main_v30, main_c_8, main_v31, main_v32, main_v33, main_v34, main_v35, main_c_9, main_v36, main_v37, main_c_10, main_v38, main_v39, main_v40, main_v41, main_v42, main_c_11, main_v43, main_v44, main_c_12, main_v45, main_v46, main_v47, main_c_13, main_v48, main_v49, main_v50, main_v51, main_v52, main_v53, main_c_14, main_v54, main_v55, main_c_15, main_v56, main_v57, main_v58, main_c_16, main_v59, main_v60, main_v61, main_v62, main_v63, main_v64, main_c_17, main_v65, main_v66, main_c_18, main_v67, main_v68, main_v69, main_c_19, main_v70, main_v71, main_v72, main_v73, main_v74, main_v75, main_v76, main_v77, main_v78, main_v79]

/-- Every host operation writes exactly one array, and that array is on the list. -/
theorem hostOps0_writes : (hostOps0 : List (HloOp τ sig (Elt F))).Forall fun op =>
    op.writes ⊆ (hostWritten.map (Proc.devRef (τ := τ) .tc)).toFinset := by
  simp only [List.Forall]
  repeat' apply And.intro
  all_goals exact Finset.singleton_subset_iff.mpr (List.mem_toFinset.mpr (List.mem_map_of_mem (by decide)))

/-- An array the host line does not define is found by the region as launched. -/
theorem V_of_not_written (c : Dev nD) (r : Ref sig .tc) (h : r ∉ hostWritten) : V m c r = m ((c : Thread nD τ).loc r) :=
  StableHlo.after_of_writes_sub hostOps0 _ hostOps0_writes h

theorem V_main_arg0 (c : Dev nD) : V m c main_arg0 = m ((c : Thread nD τ).loc main_arg0) :=
  V_of_not_written m c main_arg0 (by decide)
theorem V_main_arg1 (c : Dev nD) : V m c main_arg1 = m ((c : Thread nD τ).loc main_arg1) :=
  V_of_not_written m c main_arg1 (by decide)
theorem V_main_arg2 (c : Dev nD) : V m c main_arg2 = m ((c : Thread nD τ).loc main_arg2) :=
  V_of_not_written m c main_arg2 (by decide)
theorem V_main_arg3 (c : Dev nD) : V m c main_arg3 = m ((c : Thread nD τ).loc main_arg3) :=
  V_of_not_written m c main_arg3 (by decide)
theorem V_main_arg4 (c : Dev nD) : V m c main_arg4 = m ((c : Thread nD τ).loc main_arg4) :=
  V_of_not_written m c main_arg4 (by decide)
theorem V_main_arg5 (c : Dev nD) : V m c main_arg5 = m ((c : Thread nD τ).loc main_arg5) :=
  V_of_not_written m c main_arg5 (by decide)
theorem V_main_arg6 (c : Dev nD) : V m c main_arg6 = m ((c : Thread nD τ).loc main_arg6) :=
  V_of_not_written m c main_arg6 (by decide)
theorem V_main_arg7 (c : Dev nD) : V m c main_arg7 = m ((c : Thread nD τ).loc main_arg7) :=
  V_of_not_written m c main_arg7 (by decide)
theorem V_main_arg8 (c : Dev nD) : V m c main_arg8 = m ((c : Thread nD τ).loc main_arg8) :=
  V_of_not_written m c main_arg8 (by decide)
theorem V_main_arg9 (c : Dev nD) : V m c main_arg9 = m ((c : Thread nD τ).loc main_arg9) :=
  V_of_not_written m c main_arg9 (by decide)
theorem V_main_arg10 (c : Dev nD) : V m c main_arg10 = m ((c : Thread nD τ).loc main_arg10) :=
  V_of_not_written m c main_arg10 (by decide)
theorem V_main_arg11 (c : Dev nD) : V m c main_arg11 = m ((c : Thread nD τ).loc main_arg11) :=
  V_of_not_written m c main_arg11 (by decide)
theorem V_main_arg12 (c : Dev nD) : V m c main_arg12 = m ((c : Thread nD τ).loc main_arg12) :=
  V_of_not_written m c main_arg12 (by decide)
theorem V_main_arg13 (c : Dev nD) : V m c main_arg13 = m ((c : Thread nD τ).loc main_arg13) :=
  V_of_not_written m c main_arg13 (by decide)

/-! ## Blocks -/

/-- Window `w`'s block at grid point `t`: the rows of the window's array (as the region finds it) that the
    window's index map selects for that point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window is fetched at every point and never cut or idle, and the body leaves an input's buffer
    as it was; hence, for any proof data whose array is `V`'s and whose body keeps the block in place, the
    buffer the body is handed holds exactly that point's block. -/

/-- Input window 0: the buffer the body is handed at point `t` already holds that point's block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: the buffer the body is handed at point `t` already holds that point's block. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: the buffer the body is handed at point `t` already holds that point's block. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3: the buffer the body is handed at point `t` already holds that point's block. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4: the buffer the body is handed at point `t` already holds that point's block. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5: the buffer the body is handed at point `t` already holds that point's block. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6: the buffer the body is handed at point `t` already holds that point's block. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7: the buffer the body is handed at point `t` already holds that point's block. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8: the buffer the body is handed at point `t` already holds that point's block. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9: the buffer the body is handed at point `t` already holds that point's block. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## From the region's post to the arguments -/

/-- If @main runs to a state where every array the region stages holds what the proof data says and every
    other array holds what the region found, then the fourteen arguments are as launched: arguments 11, 12
    and 13 are the arrays of input windows 6, 7 and 8, which the region only reads; the other eleven are
    staged by no window; and no host operation writes any of the fourteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 6).trans (((dats 0 c).arrAt_in 6 rfl _).trans ((hA c 6).trans (V_main_arg11 m c))),
      ((h c).1 7).trans (((dats 0 c).arrAt_in 7 rfl _).trans ((hA c 7).trans (V_main_arg12 m c))),
      ((h c).1 8).trans (((dats 0 c).arrAt_in 8 rfl _).trans ((hA c 8).trans (V_main_arg13 m c)))⟩) h

/-! ## The body -/

/-- The one rectangle the body stores through: all 256 entries of the output block. -/
abbrev wholeRow : Rect S256 := Rect.unit (s := S256) ![0] S256.size inb_S256_S256_0

/-- The rectangles the body loads through: each is the whole of its block. -/
abbrev all60 : Rect S256x60 := Rect.unit (s := S256x60) ![0, 0] S256x60.size inb_S256x60_S256x60_0_0
abbrev all24x60 : Rect S256x24x60 := Rect.unit (s := S256x24x60) ![0, 0, 0] S256x24x60.size inb_S256x24x60_S256x24x60_0_0_0
abbrev all24 : Rect S256x24 := Rect.unit (s := S256x24) ![0, 0] S256x24.size inb_S256x24_S256x24_0_0
abbrev all3 : Rect S256x3 := Rect.unit (s := S256x3) ![0, 0] S256x3.size inb_S256x3_S256x3_0_0

/-- What the body leaves in the output block, as a function of the ten input blocks: its single store, of the
    value the program computes from the ten loads, laid over the whole block. -/
def stored (x0 : Vec F S256x60 .f32) (x1 : Vec F S256x60 .f32) (x2 : Vec F S256x60 .f32) (x3 : Vec F S256x24x60 .bf16) (x4 : Vec F S256x24x60 .bf16) (x5 : Vec F S256x24x60 .bf16) (x6 : Vec F S256x24 .i32) (x7 : Vec F S256x24 .i32) (x8 : Vec F S256x24 .i32) (x9 : Vec F S256x3 .f32) : Vec F S256 .f32 :=
  View.canon [⟨wholeRow,
    k0_pay1 (k0_pay2 (View.ld x0 all60) (View.ld x3 all24x60) (View.ld x6 all24))
      (k0_pay5 (k0_pay3 (View.ld x2 all60)) (k0_pay4 (View.ld x2 all60)) (View.ld x4 all24x60) (View.ld x7 all24))
      (k0_pay6 (View.ld x1 all60)) (k0_pay7 (View.ld x5 all24x60)) (k0_pay8 (View.ld x5 all24x60))
      (View.ld x8 all24) (View.ld x9 all3)⟩]

/-- The store's rectangle is the whole block, so it covers every index. -/
theorem wholeRow_covers (p0 : Vec F S256 .f32) (y : S256.Idx) :
    ∃ pc ∈ ([⟨wholeRow, p0⟩] : List (View.Piece (Elt F) S256 .f32)), y ∈ pc.1.set :=
  View.cover_of_tiled [⟨wholeRow, p0⟩] S256.size (by rfl) y

set_option maxHeartbeats 4000000 in
/-- The body's specification: called on eleven whole buffers, the ten inputs holding `x0 … x9` and the output
    holding anything, it runs without fault to its continuation with the inputs unchanged and the output
    holding `stored x0 … x9`. (It reads the old output block before overwriting it; the value read is unused.) -/
theorem body_spec (c : Dev nD) (E : Set ℕ) (i : grid0.Coords) (arg1 : Memref sig .tc .vmem S256x60 .f32) (harg1 : arg1.IsWhole) (arg2 : Memref sig .tc .vmem S256x60 .f32) (harg2 : arg2.IsWhole) (arg3 : Memref sig .tc .vmem S256x60 .f32) (harg3 : arg3.IsWhole) (arg4 : Memref sig .tc .vmem S256x24x60 .bf16) (harg4 : arg4.IsWhole) (arg5 : Memref sig .tc .vmem S256x24x60 .bf16) (harg5 : arg5.IsWhole) (arg6 : Memref sig .tc .vmem S256x24x60 .bf16) (harg6 : arg6.IsWhole) (arg7 : Memref sig .tc .vmem S256x24 .i32) (harg7 : arg7.IsWhole) (arg8 : Memref sig .tc .vmem S256x24 .i32) (harg8 : arg8.IsWhole) (arg9 : Memref sig .tc .vmem S256x24 .i32) (harg9 : arg9.IsWhole) (arg10 : Memref sig .tc .vmem S256x3 .f32) (harg10 : arg10.IsWhole) (arg11 : Memref sig .tc .vmem S256 .f32) (harg11 : arg11.IsWhole)
    (x0 : Vec F S256x60 .f32) (x1 : Vec F S256x60 .f32) (x2 : Vec F S256x60 .f32) (x3 : Vec F S256x24x60 .bf16) (x4 : Vec F S256x24x60 .bf16) (x5 : Vec F S256x24x60 .bf16) (x6 : Vec F S256x24 .i32) (x7 : Vec F S256x24 .i32) (x8 : Vec F S256x24 .i32) (x9 : Vec F S256x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (stored x0 x1 x2 x3 x4 x5 x6 x7 x8 x9)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9 arg10 harg10 arg11 harg11) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (wholeRow_covers _)

/-! ## The proof data of the pipeline -/

/-- On core `c`: the arrays as the region finds them; after the body at point `t`, each input's buffer still
    at its block and the output's at `stored` of the ten input blocks; the region's invariant is that nothing
    outside the staged buffers moves; full ownership throughout, nothing owed. -/
def pointData (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => stored (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are `V`'s (by projection; `V` itself is never unfolded). -/
theorem arrays_eq (c : Dev nD) (w : Fin cfg0.W) : (pointData m 0 c).A w = V m c (Pipeline.arrRef spec0 w) := by
  dsimp only [pointData]

theorem after_in0 (c : Dev nD) (t : Fin cfg0.N) : (pointData m 0 c).after 0 t = iblk m c 0 t := by dsimp only [pointData]
theorem after_in1 (c : Dev nD) (t : Fin cfg0.N) : (pointData m 0 c).after 1 t = iblk m c 1 t := by dsimp only [pointData]
theorem after_in2 (c : Dev nD) (t : Fin cfg0.N) : (pointData m 0 c).after 2 t = iblk m c 2 t := by dsimp only [pointData]
theorem after_in3 (c : Dev nD) (t : Fin cfg0.N) : (pointData m 0 c).after 3 t = iblk m c 3 t := by dsimp only [pointData]
theorem after_in4 (c : Dev nD) (t : Fin cfg0.N) : (pointData m 0 c).after 4 t = iblk m c 4 t := by dsimp only [pointData]
theorem after_in5 (c : Dev nD) (t : Fin cfg0.N) : (pointData m 0 c).after 5 t = iblk m c 5 t := by dsimp only [pointData]
theorem after_in6 (c : Dev nD) (t : Fin cfg0.N) : (pointData m 0 c).after 6 t = iblk m c 6 t := by dsimp only [pointData]
theorem after_in7 (c : Dev nD) (t : Fin cfg0.N) : (pointData m 0 c).after 7 t = iblk m c 7 t := by dsimp only [pointData]
theorem after_in8 (c : Dev nD) (t : Fin cfg0.N) : (pointData m 0 c).after 8 t = iblk m c 8 t := by dsimp only [pointData]
theorem after_in9 (c : Dev nD) (t : Fin cfg0.N) : (pointData m 0 c).after 9 t = iblk m c 9 t := by dsimp only [pointData]
/-- The output block after the body at point `t`. -/
theorem after_out (c : Dev nD) (t : Fin cfg0.N) : (pointData m 0 c).after 10 t = stored (iblk m c 0 t) (iblk m c 1 t) (iblk m c 2 t) (iblk m c 3 t) (iblk m c 4 t) (iblk m c 5 t) (iblk m c 6 t) (iblk m c 7 t) (iblk m c 8 t) (iblk m c 9 t) := by
  dsimp only [pointData]

theorem before_in0 (c : Dev nD) (t : Fin cfg0.N) (d) : (pointData m 0 c).before 0 t d = iblk m c 0 t :=
  before0_of m (pointData m 0 c) (arrays_eq m c 0) (after_in0 m c) t d
theorem before_in1 (c : Dev nD) (t : Fin cfg0.N) (d) : (pointData m 0 c).before 1 t d = iblk m c 1 t :=
  before1_of m (pointData m 0 c) (arrays_eq m c 1) (after_in1 m c) t d
theorem before_in2 (c : Dev nD) (t : Fin cfg0.N) (d) : (pointData m 0 c).before 2 t d = iblk m c 2 t :=
  before2_of m (pointData m 0 c) (arrays_eq m c 2) (after_in2 m c) t d
theorem before_in3 (c : Dev nD) (t : Fin cfg0.N) (d) : (pointData m 0 c).before 3 t d = iblk m c 3 t :=
  before3_of m (pointData m 0 c) (arrays_eq m c 3) (after_in3 m c) t d
theorem before_in4 (c : Dev nD) (t : Fin cfg0.N) (d) : (pointData m 0 c).before 4 t d = iblk m c 4 t :=
  before4_of m (pointData m 0 c) (arrays_eq m c 4) (after_in4 m c) t d
theorem before_in5 (c : Dev nD) (t : Fin cfg0.N) (d) : (pointData m 0 c).before 5 t d = iblk m c 5 t :=
  before5_of m (pointData m 0 c) (arrays_eq m c 5) (after_in5 m c) t d
theorem before_in6 (c : Dev nD) (t : Fin cfg0.N) (d) : (pointData m 0 c).before 6 t d = iblk m c 6 t :=
  before6_of m (pointData m 0 c) (arrays_eq m c 6) (after_in6 m c) t d
theorem before_in7 (c : Dev nD) (t : Fin cfg0.N) (d) : (pointData m 0 c).before 7 t d = iblk m c 7 t :=
  before7_of m (pointData m 0 c) (arrays_eq m c 7) (after_in7 m c) t d
theorem before_in8 (c : Dev nD) (t : Fin cfg0.N) (d) : (pointData m 0 c).before 8 t d = iblk m c 8 t :=
  before8_of m (pointData m 0 c) (arrays_eq m c 8) (after_in8 m c) t d
theorem before_in9 (c : Dev nD) (t : Fin cfg0.N) (d) : (pointData m 0 c).before 9 t d = iblk m c 9 t :=
  before9_of m (pointData m 0 c) (arrays_eq m c 9) (after_in9 m c) t d

/-! ## The body at a generic point -/

/-- What the pipeline hands the body at point `t`: the invariant, the core's dues, and each window's current
    buffer — an input's at its block, the output's at whatever it held. -/
def bodyPre (c : Dev nD) (t : Fin cfg0.N) : sProp 𝕄 :=
  iprop((pointData m 0 c).Φ t.castSucc ∗ (pointData m 0 c).owesAt () t.castSucc
    ∗ (∃ d, owns (c : Thread nD τ) (st0_0 t) fullShare ((pointData m 0 c).before 0 t d))
    ∗ (∃ d, owns (c : Thread nD τ) (st0_1 t) fullShare ((pointData m 0 c).before 1 t d))
    ∗ (∃ d, owns (c : Thread nD τ) (st0_2 t) fullShare ((pointData m 0 c).before 2 t d))
    ∗ (∃ d, owns (c : Thread nD τ) (st0_3 t) fullShare ((pointData m 0 c).before 3 t d))
    ∗ (∃ d, owns (c : Thread nD τ) (st0_4 t) fullShare ((pointData m 0 c).before 4 t d))
    ∗ (∃ d, owns (c : Thread nD τ) (st0_5 t) fullShare ((pointData m 0 c).before 5 t d))
    ∗ (∃ d, owns (c : Thread nD τ) (st0_6 t) fullShare ((pointData m 0 c).before 6 t d))
    ∗ (∃ d, owns (c : Thread nD τ) (st0_7 t) fullShare ((pointData m 0 c).before 7 t d))
    ∗ (∃ d, owns (c : Thread nD τ) (st0_8 t) fullShare ((pointData m 0 c).before 8 t d))
    ∗ (∃ d, owns (c : Thread nD τ) (st0_9 t) fullShare ((pointData m 0 c).before 9 t d))
    ∗ (∃ d, owns (c : Thread nD τ) (st0_10 t) fullShare ((pointData m 0 c).before 10 t d)))

/-- What the body hands back. -/
def bodyPost (c : Dev nD) (t : Fin cfg0.N) : sProp 𝕄 :=
  iprop((pointData m 0 c).Φ t.succ ∗ (pointData m 0 c).owesAt () t.succ
    ∗ owns (c : Thread nD τ) (st0_0 t) fullShare ((pointData m 0 c).after 0 t)
    ∗ owns (c : Thread nD τ) (st0_1 t) fullShare ((pointData m 0 c).after 1 t)
    ∗ owns (c : Thread nD τ) (st0_2 t) fullShare ((pointData m 0 c).after 2 t)
    ∗ owns (c : Thread nD τ) (st0_3 t) fullShare ((pointData m 0 c).after 3 t)
    ∗ owns (c : Thread nD τ) (st0_4 t) fullShare ((pointData m 0 c).after 4 t)
    ∗ owns (c : Thread nD τ) (st0_5 t) fullShare ((pointData m 0 c).after 5 t)
    ∗ owns (c : Thread nD τ) (st0_6 t) fullShare ((pointData m 0 c).after 6 t)
    ∗ owns (c : Thread nD τ) (st0_7 t) fullShare ((pointData m 0 c).after 7 t)
    ∗ owns (c : Thread nD τ) (st0_8 t) fullShare ((pointData m 0 c).after 8 t)
    ∗ owns (c : Thread nD τ) (st0_9 t) fullShare ((pointData m 0 c).after 9 t)
    ∗ owns (c : Thread nD τ) (st0_10 t) fullShare ((pointData m 0 c).after 10 t))

/-- At every point the body meets its obligation: its inputs' buffers hold their blocks, so `body_spec` applies;
    the invariant and the dues are carried across untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9]
  rw [show (pointData m 0 c).Φ t.succ = (pointData m 0 c).Φ t.castSucc from rfl,
    show (pointData m 0 c).owesAt () t.succ = (pointData m 0 c).owesAt () t.castSucc from rfl,
    after_in0, after_in1, after_in2, after_in3, after_in4, after_in5, after_in6, after_in7, after_in8, after_in9, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_spec c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (pointData (F := F) m 0 c) (defs₀ (F := F)) Variants.none () Set.univ := fun t => by
  rw [bigSep_W0, bigSep_W0]
  exact sound_body m c t

/-! ## The run and the frame -/

-- the run theorem's implicit arguments are found by unifying its conclusion with this statement, which needs
-- plain definitions unfolded inside a metavariable's type
set_option backward.isDefEq.respectTransparency.types false in
/-- From any memory with all counters zero, every weakly fair execution of @main on the TensorCores terminates
    without fault, in a state where each staged array holds what the proof data computes for it and every
    other unscoped array holds what the region found there. -/
theorem run_main : θ_run defs (onTc (τ := τ) (main (F := F))) (s₀ m ρ) (Pipeline.FramePost cfgs (pointData m) 0 (V m)) :=
  Pipeline.θ_run_frame cfgs (pointData m) (0 : Fin 1) launch0 defs₀ Variants.none m ρ main
    (hbody := fun c => (body_obligation m c).loose) (hshare := fun c => (pointData m 0 c).share_full fun _ => rfl)
    (howed := fun _ _ => rfl) (V := V m) (hmain := hmain m Variants.none) (hA := arrays_eq m) (hΦ := fun _ _ => rfl)

/-- The frame claim's statement at any float model: @main runs and the fourteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (pointData m) (arrays_eq m) (run_main m ρ)

end Cert.Kernel.Frm

end
-- ==== Proof.FrameIdeal.lean ====
/-
  The frame of `Cert.KernelIdeal`: @main runs to the end without a fault and leaves its fourteen argument arrays as
  it found them.

  @main is a straight line of 101 host operations (index clamps, gathers, broadcasts, concatenations), each
  writing one fresh intermediate array, followed by ONE pipelined region over a grid of 256 points. At a
  point the region hands the body one block of each of ten input arrays (256 rows of each) and one block of
  the output array; the body reads every input block whole, computes one value of 256 numbers from them, and
  overwrites the whole output block with it. So: no host operation writes an argument; the region only READS
  its ten input arrays (three of which are arguments) and WRITES the one result array, which is no argument;
  every other array is untouched by the region. This module states what the region finds in each array (`V`),
  what a block is (`iblk`), what the body leaves in the output block (`stored`), proves the body's
  specification at a generic grid point, and assembles the run of @main from it.
-/
import proofs.«160819_j36352603193502_2_alg».proof.Proof.Gen.KernelIdeal.Launch
import proofs.«160819_j36352603193502_2_alg».proof.Proof.Gen.KernelIdeal.Skeleton
import proofs.«160819_j36352603193502_2_alg».proof.Proof.Gen.KernelIdeal.Points
import Idealize.ShloMosaic.Lib.Pipeline.FrameBody
import Idealize.ShloMosaic.Lib.Ring
import Idealize.ShloMosaic.Lib.Tactic

-- the line of 101 host operations is a literal list: walking it recurses once per operation
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- What core `c`'s arrays hold when the region is entered: the launch contents rewritten by the 101 host
    operations in order, each replacing the one array it defines. -/
abbrev V (c : Dev nD) (b : Ref sig .tc) : Buf (Elt F) ((c : Thread nD τ).loc b) :=
  StableHlo.after hostOps0 (fun b => m (c, b)) b

/-- No host operation allocates: each writes an array the program already names. -/
theorem hostOps0_fresh : (hostOps0 : List (HloOp τ sig (Elt F))).Forall fun op => op.fresh = ∅ := by
  simp only [List.Forall]; repeat' constructor

/-- @main is the host line and then the region, so the region starts from `V`. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The arrays the host line defines, in the order it defines them: one per operation, none of them an argument. -/
abbrev hostWritten : List (Ref sig .tc) :=
  [main_v0, main_c, main_v1, main_v2, main_c_0, main_v3, main_v4, main_v5, main_v6, main_v7, main_c_1, main_v8, main_v9, main_c_2, main_v10, main_v11, main_v12, main_v13, main_v14, main_c_3, main_v15, main_v16, main_c_4, main_v17, main_v18, main_v19, main_v20, main_v21, main_c_5, main_v22, main_v23, main_c_6, main_v24, main_v25, main_v26, main_v27, main_v28, main_c_7, main_v29, main_v30, main_c_8, main_v31, main_v32, main_v33, main_v34, main_v35, main_c_9, main_v36, main_v37, main_c_10, main_v38, main_v39, main_v40, main_v41, main_v42, main_c_11, main_v43, main_v44, main_c_12, main_v45, main_v46, main_v47, main_c_13, main_v48, main_v49, main_v50, main_v51, main_v52, main_v53, main_c_14, main_v54, main_v55, main_c_15, main_v56, main_v57, main_v58, main_c_16, main_v59, main_v60, main_v61, main_v62, main_v63, main_v64, main_c_17, main_v65, main_v66, main_c_18, main_v67, main_v68, main_v69, main_c_19, main_v70, main_v71, main_v72, main_v73, main_v74, main_v75, main_v76, main_v77, main_v78, main_v79]

/-- Every host operation writes exactly one array, and that array is on the list. -/
theorem hostOps0_writes : (hostOps0 : List (HloOp τ sig (Elt F))).Forall fun op =>
    op.writes ⊆ (hostWritten.map (Proc.devRef (τ := τ) .tc)).toFinset := by
  simp only [List.Forall]
  repeat' apply And.intro
  all_goals exact Finset.singleton_subset_iff.mpr (List.mem_toFinset.mpr (List.mem_map_of_mem (by decide)))

/-- An array the host line does not define is found by the region as launched. -/
theorem V_of_not_written (c : Dev nD) (r : Ref sig .tc) (h : r ∉ hostWritten) : V m c r = m ((c : Thread nD τ).loc r) :=
  StableHlo.after_of_writes_sub hostOps0 _ hostOps0_writes h

theorem V_main_arg0 (c : Dev nD) : V m c main_arg0 = m ((c : Thread nD τ).loc main_arg0) :=
  V_of_not_written m c main_arg0 (by decide)
theorem V_main_arg1 (c : Dev nD) : V m c main_arg1 = m ((c : Thread nD τ).loc main_arg1) :=
  V_of_not_written m c main_arg1 (by decide)
theorem V_main_arg2 (c : Dev nD) : V m c main_arg2 = m ((c : Thread nD τ).loc main_arg2) :=
  V_of_not_written m c main_arg2 (by decide)
theorem V_main_arg3 (c : Dev nD) : V m c main_arg3 = m ((c : Thread nD τ).loc main_arg3) :=
  V_of_not_written m c main_arg3 (by decide)
theorem V_main_arg4 (c : Dev nD) : V m c main_arg4 = m ((c : Thread nD τ).loc main_arg4) :=
  V_of_not_written m c main_arg4 (by decide)
theorem V_main_arg5 (c : Dev nD) : V m c main_arg5 = m ((c : Thread nD τ).loc main_arg5) :=
  V_of_not_written m c main_arg5 (by decide)
theorem V_main_arg6 (c : Dev nD) : V m c main_arg6 = m ((c : Thread nD τ).loc main_arg6) :=
  V_of_not_written m c main_arg6 (by decide)
theorem V_main_arg7 (c : Dev nD) : V m c main_arg7 = m ((c : Thread nD τ).loc main_arg7) :=
  V_of_not_written m c main_arg7 (by decide)
theorem V_main_arg8 (c : Dev nD) : V m c main_arg8 = m ((c : Thread nD τ).loc main_arg8) :=
  V_of_not_written m c main_arg8 (by decide)
theorem V_main_arg9 (c : Dev nD) : V m c main_arg9 = m ((c : Thread nD τ).loc main_arg9) :=
  V_of_not_written m c main_arg9 (by decide)
theorem V_main_arg10 (c : Dev nD) : V m c main_arg10 = m ((c : Thread nD τ).loc main_arg10) :=
  V_of_not_written m c main_arg10 (by decide)
theorem V_main_arg11 (c : Dev nD) : V m c main_arg11 = m ((c : Thread nD τ).loc main_arg11) :=
  V_of_not_written m c main_arg11 (by decide)
theorem V_main_arg12 (c : Dev nD) : V m c main_arg12 = m ((c : Thread nD τ).loc main_arg12) :=
  V_of_not_written m c main_arg12 (by decide)
theorem V_main_arg13 (c : Dev nD) : V m c main_arg13 = m ((c : Thread nD τ).loc main_arg13) :=
  V_of_not_written m c main_arg13 (by decide)

/-! ## Blocks -/

/-- Window `w`'s block at grid point `t`: the rows of the window's array (as the region finds it) that the
    window's index map selects for that point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window is fetched at every point and never cut or idle, and the body leaves an input's buffer
    as it was; hence, for any proof data whose array is `V`'s and whose body keeps the block in place, the
    buffer the body is handed holds exactly that point's block. -/

/-- Input window 0: the buffer the body is handed at point `t` already holds that point's block. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1: the buffer the body is handed at point `t` already holds that point's block. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2: the buffer the body is handed at point `t` already holds that point's block. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3: the buffer the body is handed at point `t` already holds that point's block. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4: the buffer the body is handed at point `t` already holds that point's block. -/
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5: the buffer the body is handed at point `t` already holds that point's block. -/
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6: the buffer the body is handed at point `t` already holds that point's block. -/
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7: the buffer the body is handed at point `t` already holds that point's block. -/
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8: the buffer the body is handed at point `t` already holds that point's block. -/
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9: the buffer the body is handed at point `t` already holds that point's block. -/
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## From the region's post to the arguments -/

/-- If @main runs to a state where every array the region stages holds what the proof data says and every
    other array holds what the region found, then the fourteen arguments are as launched: arguments 11, 12
    and 13 are the arrays of input windows 6, 7 and 8, which the region only reads; the other eleven are
    staged by no window; and no host operation writes any of the fourteen. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 6).trans (((dats 0 c).arrAt_in 6 rfl _).trans ((hA c 6).trans (V_main_arg11 m c))),
      ((h c).1 7).trans (((dats 0 c).arrAt_in 7 rfl _).trans ((hA c 7).trans (V_main_arg12 m c))),
      ((h c).1 8).trans (((dats 0 c).arrAt_in 8 rfl _).trans ((hA c 8).trans (V_main_arg13 m c)))⟩) h

/-! ## The body -/

/-- The one rectangle the body stores through: all 256 entries of the output block. -/
abbrev wholeRow : Rect S256 := Rect.unit (s := S256) ![0] S256.size inb_S256_S256_0

/-- The rectangles the body loads through: each is the whole of its block. -/
abbrev all60 : Rect S256x60 := Rect.unit (s := S256x60) ![0, 0] S256x60.size inb_S256x60_S256x60_0_0
abbrev all24x60 : Rect S256x24x60 := Rect.unit (s := S256x24x60) ![0, 0, 0] S256x24x60.size inb_S256x24x60_S256x24x60_0_0_0
abbrev all24 : Rect S256x24 := Rect.unit (s := S256x24) ![0, 0] S256x24.size inb_S256x24_S256x24_0_0
abbrev all3 : Rect S256x3 := Rect.unit (s := S256x3) ![0, 0] S256x3.size inb_S256x3_S256x3_0_0

/-- What the body leaves in the output block, as a function of the ten input blocks: its single store, of the
    value the program computes from the ten loads, laid over the whole block. -/
def stored (x0 : Vec F S256x60 .f32) (x1 : Vec F S256x60 .f32) (x2 : Vec F S256x60 .f32) (x3 : Vec F S256x24x60 .bf16) (x4 : Vec F S256x24x60 .bf16) (x5 : Vec F S256x24x60 .bf16) (x6 : Vec F S256x24 .i32) (x7 : Vec F S256x24 .i32) (x8 : Vec F S256x24 .i32) (x9 : Vec F S256x3 .f32) : Vec F S256 .f32 :=
  View.canon [⟨wholeRow,
    k0_pay1 (k0_pay2 (View.ld x0 all60) (View.ld x3 all24x60) (View.ld x6 all24))
      (k0_pay5 (k0_pay3 (View.ld x2 all60)) (k0_pay4 (View.ld x2 all60)) (View.ld x4 all24x60) (View.ld x7 all24))
      (k0_pay6 (View.ld x1 all60)) (k0_pay7 (View.ld x5 all24x60)) (k0_pay8 (View.ld x5 all24x60))
      (View.ld x8 all24) (View.ld x9 all3)⟩]

/-- The store's rectangle is the whole block, so it covers every index. -/
theorem wholeRow_covers (p0 : Vec F S256 .f32) (y : S256.Idx) :
    ∃ pc ∈ ([⟨wholeRow, p0⟩] : List (View.Piece (Elt F) S256 .f32)), y ∈ pc.1.set :=
  View.cover_of_tiled [⟨wholeRow, p0⟩] S256.size (by rfl) y

set_option maxHeartbeats 4000000 in
/-- The body's specification: called on eleven whole buffers, the ten inputs holding `x0 … x9` and the output
    holding anything, it runs without fault to its continuation with the inputs unchanged and the output
    holding `stored x0 … x9`. (It reads the old output block before overwriting it; the value read is unused.) -/
theorem body_spec (c : Dev nD) (E : Set ℕ) (i : grid0.Coords) (arg1 : Memref sig .tc .vmem S256x60 .f32) (harg1 : arg1.IsWhole) (arg2 : Memref sig .tc .vmem S256x60 .f32) (harg2 : arg2.IsWhole) (arg3 : Memref sig .tc .vmem S256x60 .f32) (harg3 : arg3.IsWhole) (arg4 : Memref sig .tc .vmem S256x24x60 .bf16) (harg4 : arg4.IsWhole) (arg5 : Memref sig .tc .vmem S256x24x60 .bf16) (harg5 : arg5.IsWhole) (arg6 : Memref sig .tc .vmem S256x24x60 .bf16) (harg6 : arg6.IsWhole) (arg7 : Memref sig .tc .vmem S256x24 .i32) (harg7 : arg7.IsWhole) (arg8 : Memref sig .tc .vmem S256x24 .i32) (harg8 : arg8.IsWhole) (arg9 : Memref sig .tc .vmem S256x24 .i32) (harg9 : arg9.IsWhole) (arg10 : Memref sig .tc .vmem S256x3 .f32) (harg10 : arg10.IsWhole) (arg11 : Memref sig .tc .vmem S256 .f32) (harg11 : arg11.IsWhole)
    (x0 : Vec F S256x60 .f32) (x1 : Vec F S256x60 .f32) (x2 : Vec F S256x60 .f32) (x3 : Vec F S256x24x60 .bf16) (x4 : Vec F S256x24x60 .bf16) (x5 : Vec F S256x24x60 .bf16) (x6 : Vec F S256x24 .i32) (x7 : Vec F S256x24 .i32) (x8 : Vec F S256x24 .i32) (x9 : Vec F S256x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (stored x0 x1 x2 x3 x4 x5 x6 x7 x8 x9)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9 arg10 harg10 arg11 harg11) K := by
  simp only [cc0__pool_kernel_eq_skeleton]; unfold cc0__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (wholeRow_covers _)

/-! ## The proof data of the pipeline -/

/-- On core `c`: the arrays as the region finds them; after the body at point `t`, each input's buffer still
    at its block and the output's at `stored` of the ten input blocks; the region's invariant is that nothing
    outside the staged buffers moves; full ownership throughout, nothing owed. -/
def pointData (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => stored (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are `V`'s (by projection; `V` itself is never unfolded). -/
theorem arrays_eq (c : Dev nD) (w : Fin cfg0.W) : (pointData m 0 c).A w = V m c (Pipeline.arrRef spec0 w) := by
  dsimp only [pointData]

theorem after_in0 (c : Dev nD) (t : Fin cfg0.N) : (pointData m 0 c).after 0 t = iblk m c 0 t := by dsimp only [pointData]
theorem after_in1 (c : Dev nD) (t : Fin cfg0.N) : (pointData m 0 c).after 1 t = iblk m c 1 t := by dsimp only [pointData]
theorem after_in2 (c : Dev nD) (t : Fin cfg0.N) : (pointData m 0 c).after 2 t = iblk m c 2 t := by dsimp only [pointData]
theorem after_in3 (c : Dev nD) (t : Fin cfg0.N) : (pointData m 0 c).after 3 t = iblk m c 3 t := by dsimp only [pointData]
theorem after_in4 (c : Dev nD) (t : Fin cfg0.N) : (pointData m 0 c).after 4 t = iblk m c 4 t := by dsimp only [pointData]
theorem after_in5 (c : Dev nD) (t : Fin cfg0.N) : (pointData m 0 c).after 5 t = iblk m c 5 t := by dsimp only [pointData]
theorem after_in6 (c : Dev nD) (t : Fin cfg0.N) : (pointData m 0 c).after 6 t = iblk m c 6 t := by dsimp only [pointData]
theorem after_in7 (c : Dev nD) (t : Fin cfg0.N) : (pointData m 0 c).after 7 t = iblk m c 7 t := by dsimp only [pointData]
theorem after_in8 (c : Dev nD) (t : Fin cfg0.N) : (pointData m 0 c).after 8 t = iblk m c 8 t := by dsimp only [pointData]
theorem after_in9 (c : Dev nD) (t : Fin cfg0.N) : (pointData m 0 c).after 9 t = iblk m c 9 t := by dsimp only [pointData]
/-- The output block after the body at point `t`. -/
theorem after_out (c : Dev nD) (t : Fin cfg0.N) : (pointData m 0 c).after 10 t = stored (iblk m c 0 t) (iblk m c 1 t) (iblk m c 2 t) (iblk m c 3 t) (iblk m c 4 t) (iblk m c 5 t) (iblk m c 6 t) (iblk m c 7 t) (iblk m c 8 t) (iblk m c 9 t) := by
  dsimp only [pointData]

theorem before_in0 (c : Dev nD) (t : Fin cfg0.N) (d) : (pointData m 0 c).before 0 t d = iblk m c 0 t :=
  before0_of m (pointData m 0 c) (arrays_eq m c 0) (after_in0 m c) t d
theorem before_in1 (c : Dev nD) (t : Fin cfg0.N) (d) : (pointData m 0 c).before 1 t d = iblk m c 1 t :=
  before1_of m (pointData m 0 c) (arrays_eq m c 1) (after_in1 m c) t d
theorem before_in2 (c : Dev nD) (t : Fin cfg0.N) (d) : (pointData m 0 c).before 2 t d = iblk m c 2 t :=
  before2_of m (pointData m 0 c) (arrays_eq m c 2) (after_in2 m c) t d
theorem before_in3 (c : Dev nD) (t : Fin cfg0.N) (d) : (pointData m 0 c).before 3 t d = iblk m c 3 t :=
  before3_of m (pointData m 0 c) (arrays_eq m c 3) (after_in3 m c) t d
theorem before_in4 (c : Dev nD) (t : Fin cfg0.N) (d) : (pointData m 0 c).before 4 t d = iblk m c 4 t :=
  before4_of m (pointData m 0 c) (arrays_eq m c 4) (after_in4 m c) t d
theorem before_in5 (c : Dev nD) (t : Fin cfg0.N) (d) : (pointData m 0 c).before 5 t d = iblk m c 5 t :=
  before5_of m (pointData m 0 c) (arrays_eq m c 5) (after_in5 m c) t d
theorem before_in6 (c : Dev nD) (t : Fin cfg0.N) (d) : (pointData m 0 c).before 6 t d = iblk m c 6 t :=
  before6_of m (pointData m 0 c) (arrays_eq m c 6) (after_in6 m c) t d
theorem before_in7 (c : Dev nD) (t : Fin cfg0.N) (d) : (pointData m 0 c).before 7 t d = iblk m c 7 t :=
  before7_of m (pointData m 0 c) (arrays_eq m c 7) (after_in7 m c) t d
theorem before_in8 (c : Dev nD) (t : Fin cfg0.N) (d) : (pointData m 0 c).before 8 t d = iblk m c 8 t :=
  before8_of m (pointData m 0 c) (arrays_eq m c 8) (after_in8 m c) t d
theorem before_in9 (c : Dev nD) (t : Fin cfg0.N) (d) : (pointData m 0 c).before 9 t d = iblk m c 9 t :=
  before9_of m (pointData m 0 c) (arrays_eq m c 9) (after_in9 m c) t d

/-! ## The body at a generic point -/

/-- What the pipeline hands the body at point `t`: the invariant, the core's dues, and each window's current
    buffer — an input's at its block, the output's at whatever it held. -/
def bodyPre (c : Dev nD) (t : Fin cfg0.N) : sProp 𝕄 :=
  iprop((pointData m 0 c).Φ t.castSucc ∗ (pointData m 0 c).owesAt () t.castSucc
    ∗ (∃ d, owns (c : Thread nD τ) (st0_0 t) fullShare ((pointData m 0 c).before 0 t d))
    ∗ (∃ d, owns (c : Thread nD τ) (st0_1 t) fullShare ((pointData m 0 c).before 1 t d))
    ∗ (∃ d, owns (c : Thread nD τ) (st0_2 t) fullShare ((pointData m 0 c).before 2 t d))
    ∗ (∃ d, owns (c : Thread nD τ) (st0_3 t) fullShare ((pointData m 0 c).before 3 t d))
    ∗ (∃ d, owns (c : Thread nD τ) (st0_4 t) fullShare ((pointData m 0 c).before 4 t d))
    ∗ (∃ d, owns (c : Thread nD τ) (st0_5 t) fullShare ((pointData m 0 c).before 5 t d))
    ∗ (∃ d, owns (c : Thread nD τ) (st0_6 t) fullShare ((pointData m 0 c).before 6 t d))
    ∗ (∃ d, owns (c : Thread nD τ) (st0_7 t) fullShare ((pointData m 0 c).before 7 t d))
    ∗ (∃ d, owns (c : Thread nD τ) (st0_8 t) fullShare ((pointData m 0 c).before 8 t d))
    ∗ (∃ d, owns (c : Thread nD τ) (st0_9 t) fullShare ((pointData m 0 c).before 9 t d))
    ∗ (∃ d, owns (c : Thread nD τ) (st0_10 t) fullShare ((pointData m 0 c).before 10 t d)))

/-- What the body hands back. -/
def bodyPost (c : Dev nD) (t : Fin cfg0.N) : sProp 𝕄 :=
  iprop((pointData m 0 c).Φ t.succ ∗ (pointData m 0 c).owesAt () t.succ
    ∗ owns (c : Thread nD τ) (st0_0 t) fullShare ((pointData m 0 c).after 0 t)
    ∗ owns (c : Thread nD τ) (st0_1 t) fullShare ((pointData m 0 c).after 1 t)
    ∗ owns (c : Thread nD τ) (st0_2 t) fullShare ((pointData m 0 c).after 2 t)
    ∗ owns (c : Thread nD τ) (st0_3 t) fullShare ((pointData m 0 c).after 3 t)
    ∗ owns (c : Thread nD τ) (st0_4 t) fullShare ((pointData m 0 c).after 4 t)
    ∗ owns (c : Thread nD τ) (st0_5 t) fullShare ((pointData m 0 c).after 5 t)
    ∗ owns (c : Thread nD τ) (st0_6 t) fullShare ((pointData m 0 c).after 6 t)
    ∗ owns (c : Thread nD τ) (st0_7 t) fullShare ((pointData m 0 c).after 7 t)
    ∗ owns (c : Thread nD τ) (st0_8 t) fullShare ((pointData m 0 c).after 8 t)
    ∗ owns (c : Thread nD τ) (st0_9 t) fullShare ((pointData m 0 c).after 9 t)
    ∗ owns (c : Thread nD τ) (st0_10 t) fullShare ((pointData m 0 c).after 10 t))

/-- At every point the body meets its obligation: its inputs' buffers hold their blocks, so `body_spec` applies;
    the invariant and the dues are carried across untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6, before_in7, before_in8, before_in9]
  rw [show (pointData m 0 c).Φ t.succ = (pointData m 0 c).Φ t.castSucc from rfl,
    show (pointData m 0 c).owesAt () t.succ = (pointData m 0 c).owesAt () t.castSucc from rfl,
    after_in0, after_in1, after_in2, after_in3, after_in4, after_in5, after_in6, after_in7, after_in8, after_in9, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body_spec c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (pointData (F := F) m 0 c) (defs₀ (F := F)) Variants.none () Set.univ := fun t => by
  rw [bigSep_W0, bigSep_W0]
  exact sound_body m c t

/-! ## The run and the frame -/

-- the run theorem's implicit arguments are found by unifying its conclusion with this statement, which needs
-- plain definitions unfolded inside a metavariable's type
set_option backward.isDefEq.respectTransparency.types false in
/-- From any memory with all counters zero, every weakly fair execution of @main on the TensorCores terminates
    without fault, in a state where each staged array holds what the proof data computes for it and every
    other unscoped array holds what the region found there. -/
theorem run_main : θ_run defs (onTc (τ := τ) (main (F := F))) (s₀ m ρ) (Pipeline.FramePost cfgs (pointData m) 0 (V m)) :=
  Pipeline.θ_run_frame cfgs (pointData m) (0 : Fin 1) launch0 defs₀ Variants.none m ρ main
    (hbody := fun c => (body_obligation m c).loose) (hshare := fun c => (pointData m 0 c).share_full fun _ => rfl)
    (howed := fun _ _ => rfl) (V := V m) (hmain := hmain m Variants.none) (hA := arrays_eq m) (hΦ := fun _ _ => rfl)

/-- The frame claim's statement at any float model: @main runs and the fourteen arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (pointData m) (arrays_eq m) (run_main m ρ)

end Cert.KernelIdeal.Frm

end
-- ==== Proof.LibKeepdims.lean ====
/-
  Layout operations of "keep the reduced axis" code, read at an index, and one-axis sums at the exact values.

  A reduction written with `keepdims=True` leaves a column: the row sums of an `[a, b]` array come back as `[a]`, are
  recast to `[a, 1]`, and the column is then spread again over `[a, b]`; one rank up, the sums over the last axis of an
  `[a, b, c]` array come back as `[a, b]`, are recast to `[a, b, 1]` and spread over `[a, b, c]`. Each of these
  steps moves no number: the recast reads the operand at the same row, the spreading reads the column at the row and
  forgets the last coordinate. The lemmas below say exactly that, with every index written by its coordinates.

  At the exact values (floats as extended reals) a sum over ONE axis, started from the zero word, is the finite sum
  over that axis's coordinate of the operand at the index with the coordinate put back; this is stated for the axes that
  occur: the last axis of a matrix, the last axis of a rank-3 array, and the middle axis of a rank-3 array (a float
  sum from the zero word is that sum by definition).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## Recasts that add or drop a trailing unit axis -/

/-- A vector `[a]` recast as a column `[a, 1]` reads, at `(p, z)`, the vector at `p`. -/
theorem cast_a_a1 {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` recast as a vector `[a]` reads, at `p`, the column at `(p, 0)`. -/
theorem cast_a1_a {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A matrix `[a, b]` recast as `[a, b, 1]` reads, at `(p, l, z)`, the matrix at `(p, l)`. -/
theorem cast_ab_ab1 {a b : ℕ} (x : (⟨2, ![a, b]⟩ : Shape).Idx → α) (h : (⟨2, ![a, b]⟩ : Shape).ShapeCasts ⟨3, ![a, b, 1]⟩)
    (p : Fin a) (l : Fin b) (z : Fin 1) : shapeCast ⟨3, ![a, b, 1]⟩ x h (ix3 p l z) = x (ix2 p l) :=
  shapeCast_apply x h _ _ (by
    have hz : z.val = 0 := by omega
    rw [Shape.rowMajor_val_three, Shape.rowMajor_val_two]
    show p.val * b + l.val = (p.val * b + l.val) * 1 + z.val
    rw [hz, Nat.mul_one, Nat.add_zero])

/-! ## A column spread over the last axis -/

/-- A column `[a, 1]` spread over `[a, b]` reads, at `(p, k)`, the column at `(p, 0)`. -/
theorem spread_a1_ab {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- An array `[a, b, 1]` spread over `[a, b, c]` reads, at `(p, l, k)`, the array at `(p, l, 0)`. -/
theorem spread_ab1_abc {a b c : ℕ} (v : (⟨3, ![a, b, 1]⟩ : Shape).Idx → α)
    (h : (⟨3, ![a, b, 1]⟩ : Shape).Broadcasts ⟨3, ![a, b, c]⟩) (p : Fin a) (l : Fin b) (k : Fin c) :
    broadcastTo ⟨3, ![a, b, c]⟩ v h (ix3 p l k) = v (ix3 p l (0 : Fin 1)) := by
  refine broadcastTo_apply v h (ix3 p l k) (ix3 p l (0 : Fin 1)) fun ax => ?_
  match ax with
  | ⟨0, _⟩ =>
    show p.val = if a = 1 then 0 else p.val
    split
    · have := p.isLt; omega
    · rfl
  | ⟨1, _⟩ =>
    show l.val = if b = 1 then 0 else l.val
    split
    · have := l.isLt; omega
    · rfl
  | ⟨2, _⟩ => rfl

/-! ## One-axis sums at the exact values -/

/-- The sum over the last axis of a matrix, at row `p`: the finite sum of the row's entries. -/
theorem rowSum {a b : ℕ} (v : (⟨2, ![a, b]⟩ : Shape).Idx → EReal) (h : (⟨2, ![a, b]⟩ : Shape).Reduces [1] ⟨1, ![a]⟩) (p : Fin a) :
    Ideal.reduceAdd h v (ix1 p) = ∑ k : Fin b, v (ix2 p k) := by
  refine (Ideal.reduceAdd_single h v (ix1 p)).trans ?_
  refine Finset.sum_congr rfl fun k _ => ?_
  exact congrArg v (funext fun d => Fin.ext (by match d with | ⟨0, _⟩ => rfl | ⟨1, _⟩ => rfl))

/-- The sum over the last axis of a rank-3 array, at `(p, l)`. -/
theorem lastSum {a b c : ℕ} (v : (⟨3, ![a, b, c]⟩ : Shape).Idx → EReal) (h : (⟨3, ![a, b, c]⟩ : Shape).Reduces [2] ⟨2, ![a, b]⟩)
    (p : Fin a) (l : Fin b) : Ideal.reduceAdd h v (ix2 p l) = ∑ k : Fin c, v (ix3 p l k) := by
  refine (Ideal.reduceAdd_single h v (ix2 p l)).trans ?_
  refine Finset.sum_congr rfl fun k _ => ?_
  exact congrArg v (funext fun d => Fin.ext (by match d with | ⟨0, _⟩ => rfl | ⟨1, _⟩ => rfl | ⟨2, _⟩ => rfl))

/-- The sum over the middle axis of a rank-3 array, at `(p, k)`. -/
theorem midSum {a b c : ℕ} (v : (⟨3, ![a, b, c]⟩ : Shape).Idx → EReal) (h : (⟨3, ![a, b, c]⟩ : Shape).Reduces [1] ⟨2, ![a, c]⟩)
    (p : Fin a) (k : Fin c) : Ideal.reduceAdd h v (ix2 p k) = ∑ l : Fin b, v (ix3 p l k) := by
  refine (Ideal.reduceAdd_single h v (ix2 p k)).trans ?_
  refine Finset.sum_congr rfl fun l _ => ?_
  exact congrArg v (funext fun d => Fin.ext (by match d with | ⟨0, _⟩ => rfl | ⟨1, _⟩ => rfl | ⟨2, _⟩ => rfl))

/-- The square root of an array of exact values, read at an index. -/
theorem sqrt_at {s : Shape} {φ : FTy} (v : FVec Ideal s φ) (i : s.Idx) : sqrt v i = Ideal.sqrt (v i) := rfl

end Cert.LibKeepdims

end
-- ==== Proof.Score.lean ====
/-
  The score, as mathematics.

  Every embedded row `x` (60 numbers) is divided by its guarded length `max (√(Σ xₖ²)) ε`, `ε` the single-precision
  word nearest 10⁻¹². A ragged list of 24 word rows, each turned into its direction in that way, is averaged under a
  mask: `(Σₗ dirₗ · maskₗ) / max (Σₗ maskₗ) 1`. An entity's vector is its own direction plus its pooled words. The
  translation distance of a triple is the length of `head + relation − tail`, and the score is its negative plus three
  biases. Everything is over the extended reals with the textbook operations; nothing here needs a finite input.
-/
import Idealize.ShloMosaic.PureOps.Ideal

noncomputable section

open scoped BigOperators

namespace Cert.Score

open Idealize.ShloMosaic

/-- The guard under a row's length: the single-precision word nearest 10⁻¹². -/
abbrev tiny : EReal := Ideal.ofBits .f32 0x2B8CBCCC#32

/-- The guard under a mask's count: the word of 1. -/
abbrev unit : EReal := Ideal.ofBits .f32 0x3F800000#32

/-- A row's length, never below the guard. -/
def guardedNorm {n : ℕ} (x : Fin n → EReal) : EReal := max (Ideal.sqrt (∑ k, x k * x k)) tiny

/-- A row divided by its guarded length. -/
def direction {n : ℕ} (x : Fin n → EReal) (k : Fin n) : EReal := Ideal.div (x k) (guardedNorm x)

/-- The masked mean of the directions of a list of rows. -/
def pooled {L n : ℕ} (w : Fin L → Fin n → EReal) (mk : Fin L → EReal) (k : Fin n) : EReal :=
  Ideal.div (∑ l, direction (w l) k * mk l) (max (∑ l, mk l) unit)

/-- An entity's (or a relation's) vector: its own direction plus its pooled words. -/
def embed {L n : ℕ} (x : Fin n → EReal) (w : Fin L → Fin n → EReal) (mk : Fin L → EReal) (k : Fin n) : EReal :=
  direction x k + pooled w mk k

/-- The length of `head + relation − tail`. -/
def distance {n : ℕ} (h r t : Fin n → EReal) : EReal :=
  Ideal.sqrt (∑ k, (h k + r k - t k) * (h k + r k - t k))

/-- The biases added one after the other to the negated distance, or their sum (from zero) added to zero minus the
    distance: one number, by associativity of the extended reals' addition. -/
theorem biases_either_way (d b0 b1 b2 : EReal) :
    (0 - d) + (b0 + b1 + b2) = -d + b0 + b1 + b2 := by
  rw [zero_sub, ← add_assoc, ← add_assoc]

end Cert.Score

end
-- ==== Proof.BlockScore.lean ====
/-
  What the body computes, row by row.

  At a grid point the body holds ten blocks of 256 rows: the head, tail and relation rows (60 numbers each), the
  three lists of 24 word rows per row, the three masks (24 integers per row) and the three biases per row. Every
  operation of the body works inside one row: a sum over a row's 60 entries, a sum over a row's 24 words, a division
  of a row by a number computed from the same row. So entry `q` of the value the body stores is a function of row
  `q` of each block alone, and that function is the score of Score.lean: each of head, relation and tail is its own
  direction plus the masked mean of its words' directions, the translation distance is taken, and zero minus the
  distance plus the sum of the row's three biases is stored.

  The lemmas read the body's named intermediate values at an index, one value at a time, and then compose them.
-/
import proofs.«160819_j36352603193502_2_alg».proof.Proof.Gen.KernelIdeal.Skeleton
import proofs.«160819_j36352603193502_2_alg».proof.Proof.LibKeepdims
import proofs.«160819_j36352603193502_2_alg».proof.Proof.Score

noncomputable section

open scoped BigOperators

namespace Cert.BlockScore

open Idealize.ShloMosaic Idealize.ShloMosaic.ValueIdx Cert.KernelIdeal Cert.KernelIdeal.Gen Cert.LibKeepdims Cert.Score

/-- Row `q` of a block of rows. -/
abbrev rowAt (x : Vec Ideal S256x60 .f32) (q : Fin 256) : Fin 60 → EReal := fun k => x (ix2 q k)

/-- The 24 word rows of row `q` (stored in the short float format, which at the exact values is the same number). -/
abbrev wordsAt (x : Vec Ideal S256x24x60 .bf16) (q : Fin 256) : Fin 24 → Fin 60 → EReal := fun l k => x (ix3 q l k)

/-- Row `q` of a mask, as numbers. -/
abbrev maskAt (x : Vec Ideal S256x24 .i32) (q : Fin 256) : Fin 24 → EReal :=
  fun l => FloatOps.sitofp (F := Ideal) .f32 (x (ix2 q l))

/-- Row `q` of the joined biases. -/
abbrev biasAt (x : Vec Ideal S256x3 .f32) (q : Fin 256) : Fin 3 → EReal := fun j => x (ix2 q j)

/-- The head's vector: its direction plus its pooled words. -/
theorem head_at (x0 : Vec Ideal S256x60 .f32) (x3 : Vec Ideal S256x24x60 .bf16) (x6 : Vec Ideal S256x24 .i32)
    (q : Fin 256) (k : Fin 60) :
    k0_pay2 (F := Ideal) x0 x3 x6 (ix2 q k) = embed (rowAt x0 q) (wordsAt x3 q) (maskAt x6 q) k := by
  unfold k0_pay2 multiReduction
  simp only [addf_apply, divf_apply, spread_a1_ab, spread_ab1_abc, maximumf_apply, sqrt_at, cast_a_a1, cast_ab_ab1,
    Ideal.reduceAdd_def, rowSum, lastSum, midSum, mulf_apply, broadcast_apply, shapeCast_self, Ideal.ofBits_def, extf_apply,
    sitofp_apply]
  rfl

/-- The relation rows pass through a recast that moves nothing. -/
theorem rel_rows (x2 : Vec Ideal S256x60 .f32) : k0_pay3 (F := Ideal) x2 = x2 := by
  unfold k0_pay3
  exact shapeCast_self _ _

/-- The relation row's guarded length. -/
theorem rel_norm_at (x2 : Vec Ideal S256x60 .f32) (q : Fin 256) (z : Fin 1) :
    k0_pay4 (F := Ideal) x2 (ix2 q z) = guardedNorm (rowAt x2 q) := by
  unfold k0_pay4 k0_pay3 multiReduction
  simp only [maximumf_apply, sqrt_at, cast_a_a1, Ideal.reduceAdd_def, rowSum, mulf_apply, broadcast_apply, shapeCast_self,
    Ideal.ofBits_def]
  rfl

/-- The relation's vector, from the relation rows and their guarded lengths computed before. -/
theorem rel_at (v34 : FVec Ideal S256x60 .f32) (v40 : FVec Ideal S256x1 .f32) (x4 : Vec Ideal S256x24x60 .bf16)
    (x7 : Vec Ideal S256x24 .i32) (q : Fin 256) (k : Fin 60) :
    k0_pay5 (F := Ideal) v34 v40 x4 x7 (ix2 q k)
      = Ideal.div (v34 (ix2 q k)) (v40 (ix2 q (0 : Fin 1))) + pooled (wordsAt x4 q) (maskAt x7 q) k := by
  unfold k0_pay5 multiReduction
  simp only [addf_apply, divf_apply, spread_a1_ab, spread_ab1_abc, maximumf_apply, sqrt_at, cast_a_a1, cast_ab_ab1,
    Ideal.reduceAdd_def, rowSum, lastSum, midSum, mulf_apply, broadcast_apply, shapeCast_self, Ideal.ofBits_def, extf_apply,
    sitofp_apply]
  rfl

/-- The tail row's direction. -/
theorem tail_dir_at (x1 : Vec Ideal S256x60 .f32) (q : Fin 256) (k : Fin 60) :
    k0_pay6 (F := Ideal) x1 (ix2 q k) = direction (rowAt x1 q) k := by
  unfold k0_pay6 multiReduction
  simp only [divf_apply, spread_a1_ab, maximumf_apply, sqrt_at, cast_a_a1, Ideal.reduceAdd_def, rowSum, mulf_apply,
    broadcast_apply, shapeCast_self, Ideal.ofBits_def]
  rfl

/-- The tail's words, widened: the same numbers. -/
theorem tail_words_at (x5 : Vec Ideal S256x24x60 .bf16) (i : S256x24x60.Idx) : k0_pay7 (F := Ideal) x5 i = x5 i := by
  unfold k0_pay7
  simp only [extf_apply, shapeCast_self]

/-- The lengths of the tail's words. -/
theorem tail_word_norm_at (x5 : Vec Ideal S256x24x60 .bf16) (q : Fin 256) (l : Fin 24) (z : Fin 1) :
    k0_pay8 (F := Ideal) x5 (ix3 q l z) = Ideal.sqrt (∑ k : Fin 60, x5 (ix3 q l k) * x5 (ix3 q l k)) := by
  unfold k0_pay8 k0_pay7 multiReduction
  simp only [sqrt_at, cast_ab_ab1, Ideal.reduceAdd_def, lastSum, mulf_apply, extf_apply, shapeCast_self]

/-- The stored value at row `q`, from the head's and the relation's vectors, the tail row's direction, the tail's
    words with their lengths, the tail's mask and the biases. -/
theorem stored_at (v32 v65 v75 : FVec Ideal S256x60 .f32) (v78 : FVec Ideal S256x24x60 .f32) (v82 : FVec Ideal S256x24x1 .f32)
    (x8 : Vec Ideal S256x24 .i32) (x9 : Vec Ideal S256x3 .f32) (q : Fin 256) :
    k0_pay1 (F := Ideal) v32 v65 v75 v78 v82 x8 x9 (ix1 q)
      = (0 - Ideal.sqrt (∑ k : Fin 60,
            (v32 (ix2 q k) + v65 (ix2 q k)
              - (v75 (ix2 q k)
                  + Ideal.div (∑ l : Fin 24, Ideal.div (v78 (ix3 q l k)) (max (v82 (ix3 q l (0 : Fin 1))) tiny) * maskAt x8 q l)
                      (max (∑ l : Fin 24, maskAt x8 q l) unit)))
            * (v32 (ix2 q k) + v65 (ix2 q k)
              - (v75 (ix2 q k)
                  + Ideal.div (∑ l : Fin 24, Ideal.div (v78 (ix3 q l k)) (max (v82 (ix3 q l (0 : Fin 1))) tiny) * maskAt x8 q l)
                      (max (∑ l : Fin 24, maskAt x8 q l) unit)))))
        + ∑ j : Fin 3, x9 (ix2 q j) := by
  unfold k0_pay1 multiReduction
  simp only [cast_a1_a, addf_apply, subf_apply, divf_apply, spread_a1_ab, spread_ab1_abc, maximumf_apply, sqrt_at, cast_a_a1,
    cast_ab_ab1, Ideal.reduceAdd_def, rowSum, lastSum, midSum, mulf_apply, broadcast_apply, shapeCast_self, Ideal.ofBits_def,
    Ideal.ofBits_zero_f32, extf_apply, sitofp_apply]

/-- THE BODY'S VALUE AT ROW `q`: zero minus the translation distance of the row's three vectors, plus the sum of the
    row's three biases. -/
theorem block_score (x0 x1 x2 : Vec Ideal S256x60 .f32) (x3 x4 x5 : Vec Ideal S256x24x60 .bf16) (x6 x7 x8 : Vec Ideal S256x24 .i32)
    (x9 : Vec Ideal S256x3 .f32) (q : Fin 256) :
    k0_pay1 (F := Ideal) (k0_pay2 x0 x3 x6) (k0_pay5 (k0_pay3 x2) (k0_pay4 x2) x4 x7) (k0_pay6 x1) (k0_pay7 x5) (k0_pay8 x5) x8 x9 (ix1 q)
      = (0 - distance (embed (rowAt x0 q) (wordsAt x3 q) (maskAt x6 q)) (embed (rowAt x2 q) (wordsAt x4 q) (maskAt x7 q))
              (embed (rowAt x1 q) (wordsAt x5 q) (maskAt x8 q)))
        + ∑ j : Fin 3, biasAt x9 q j := by
  rw [stored_at]
  simp only [head_at, rel_at, rel_rows, rel_norm_at, tail_dir_at, tail_words_at, tail_word_norm_at]
  rfl

end Cert.BlockScore

end
-- ==== Proof.BlockIndex.lean ====
/-
  Which rows a grid point touches.

  The grid has 256 points. At point `t` every window is at block `t` along the rows (its block index on the row
  axis is the output's, and is below 256) and at block 0 on every other axis; every block number below 256 is some
  point's. A row of the result array lies in point `t`'s block exactly when it is one of rows `256·t … 256·t + 255`,
  so the 256 blocks cover all 65536 rows.
-/
import proofs.«160819_j36352603193502_2_alg».proof.Proof.Gen.KernelIdeal.Launch
import proofs.«160819_j36352603193502_2_alg».proof.Proof.Gen.KernelIdeal.Points
import Idealize.ShloMosaic.Lib.Pipeline.Value

set_option maxRecDepth 16384

noncomputable section

namespace Cert.BlockIndex

open Idealize.ShloMosaic Idealize.ShloMosaic.TcCoe Idealize.SL.Sem
open Cert.KernelIdeal Cert.KernelIdeal.Gen

theorem zero1 : (![0] : Fin 1 → Nat) = fun _ => 0 := funext fun a => by fin_cases a; rfl
theorem zero2 : (![0, 0] : Fin 2 → Nat) = fun _ => 0 := funext fun a => by fin_cases a <;> rfl
theorem zero3 : (![0, 0, 0] : Fin 3 → Nat) = fun _ => 0 := funext fun a => by fin_cases a <;> rfl

/-! Every window moves with the grid point along the rows and stays put on its other axes; the point's block number
    is below 256. Each decided over the 256 points. -/

theorem moves_0 : ∀ t : Fin cfg0.N, win0_0.index t (0 : Fin 2) = win0_10.index t (0 : Fin 1) ∧ win0_0.index t (1 : Fin 2) = 0 :=
  (by decide +kernel : ∀ t : Fin grid0.N, win0_0.index t (0 : Fin 2) = win0_10.index t (0 : Fin 1) ∧ win0_0.index t (1 : Fin 2) = 0)
theorem moves_1 : ∀ t : Fin cfg0.N, win0_1.index t (0 : Fin 2) = win0_10.index t (0 : Fin 1) ∧ win0_1.index t (1 : Fin 2) = 0 :=
  (by decide +kernel : ∀ t : Fin grid0.N, win0_1.index t (0 : Fin 2) = win0_10.index t (0 : Fin 1) ∧ win0_1.index t (1 : Fin 2) = 0)
theorem moves_2 : ∀ t : Fin cfg0.N, win0_2.index t (0 : Fin 2) = win0_10.index t (0 : Fin 1) ∧ win0_2.index t (1 : Fin 2) = 0 :=
  (by decide +kernel : ∀ t : Fin grid0.N, win0_2.index t (0 : Fin 2) = win0_10.index t (0 : Fin 1) ∧ win0_2.index t (1 : Fin 2) = 0)
theorem moves_6 : ∀ t : Fin cfg0.N, win0_6.index t (0 : Fin 2) = win0_10.index t (0 : Fin 1) ∧ win0_6.index t (1 : Fin 2) = 0 :=
  (by decide +kernel : ∀ t : Fin grid0.N, win0_6.index t (0 : Fin 2) = win0_10.index t (0 : Fin 1) ∧ win0_6.index t (1 : Fin 2) = 0)
theorem moves_7 : ∀ t : Fin cfg0.N, win0_7.index t (0 : Fin 2) = win0_10.index t (0 : Fin 1) ∧ win0_7.index t (1 : Fin 2) = 0 :=
  (by decide +kernel : ∀ t : Fin grid0.N, win0_7.index t (0 : Fin 2) = win0_10.index t (0 : Fin 1) ∧ win0_7.index t (1 : Fin 2) = 0)
theorem moves_8 : ∀ t : Fin cfg0.N, win0_8.index t (0 : Fin 2) = win0_10.index t (0 : Fin 1) ∧ win0_8.index t (1 : Fin 2) = 0 :=
  (by decide +kernel : ∀ t : Fin grid0.N, win0_8.index t (0 : Fin 2) = win0_10.index t (0 : Fin 1) ∧ win0_8.index t (1 : Fin 2) = 0)
theorem moves_9 : ∀ t : Fin cfg0.N, win0_9.index t (0 : Fin 2) = win0_10.index t (0 : Fin 1) ∧ win0_9.index t (1 : Fin 2) = 0 :=
  (by decide +kernel : ∀ t : Fin grid0.N, win0_9.index t (0 : Fin 2) = win0_10.index t (0 : Fin 1) ∧ win0_9.index t (1 : Fin 2) = 0)
theorem moves_3 : ∀ t : Fin cfg0.N, win0_3.index t (0 : Fin 3) = win0_10.index t (0 : Fin 1) ∧ win0_3.index t (1 : Fin 3) = 0 ∧ win0_3.index t (2 : Fin 3) = 0 :=
  (by decide +kernel : ∀ t : Fin grid0.N, win0_3.index t (0 : Fin 3) = win0_10.index t (0 : Fin 1) ∧ win0_3.index t (1 : Fin 3) = 0 ∧ win0_3.index t (2 : Fin 3) = 0)
theorem moves_4 : ∀ t : Fin cfg0.N, win0_4.index t (0 : Fin 3) = win0_10.index t (0 : Fin 1) ∧ win0_4.index t (1 : Fin 3) = 0 ∧ win0_4.index t (2 : Fin 3) = 0 :=
  (by decide +kernel : ∀ t : Fin grid0.N, win0_4.index t (0 : Fin 3) = win0_10.index t (0 : Fin 1) ∧ win0_4.index t (1 : Fin 3) = 0 ∧ win0_4.index t (2 : Fin 3) = 0)
theorem moves_5 : ∀ t : Fin cfg0.N, win0_5.index t (0 : Fin 3) = win0_10.index t (0 : Fin 1) ∧ win0_5.index t (1 : Fin 3) = 0 ∧ win0_5.index t (2 : Fin 3) = 0 :=
  (by decide +kernel : ∀ t : Fin grid0.N, win0_5.index t (0 : Fin 3) = win0_10.index t (0 : Fin 1) ∧ win0_5.index t (1 : Fin 3) = 0 ∧ win0_5.index t (2 : Fin 3) = 0)
theorem block_lt : ∀ t : Fin cfg0.N, win0_10.index t (0 : Fin 1) ≤ 255 :=
  (by decide +kernel : ∀ t : Fin grid0.N, win0_10.index t (0 : Fin 1) ≤ 255)

/-- Every block of rows is some point's. -/
theorem index_onto : ∀ b : Fin 256, ∃ t : Fin cfg0.N, win0_10.index t (0 : Fin 1) = b.val :=
  (by decide +kernel : ∀ b : Fin 256, ∃ t : Fin grid0.N, win0_10.index t (0 : Fin 1) = b.val)

/-- An index of the result array is in point `t`'s block iff its row is among the point's 256 rows. -/
theorem mem_blk (t : Fin cfg0.N) (i : S65536.Idx) :
    i ∈ ((cfg0.win 10).blk t).view.set ↔ ∀ a : Fin 1, win0_10.index t a * S256.size a ≤ (i a).val ∧ (i a).val < win0_10.index t a * S256.size a + S256.size a := by
  show i ∈ ((View.whole main_v80).slice (win0_10.rect t)).set ↔ _
  rw [View.set_slice_whole, Rect.mem_set_unit]
  exact Iff.rfl

/-- Every row of the result array is in some point's block. -/
theorem covered (i : S65536.Idx) : ∃ t : Fin cfg0.N, (cfg0.win 10).flush t = true ∧ i ∈ ((cfg0.win 10).blk t).view.set := by
  have hi : (i 0).val < 65536 := (i 0).isLt
  obtain ⟨t, ht⟩ := index_onto ⟨(i 0).val / 256, by omega⟩
  have ht' : win0_10.index t (0 : Fin 1) = (i 0).val / 256 := ht
  refine ⟨t, flush0_10 t, ?_⟩
  rw [mem_blk]
  intro a
  match a with
  | ⟨0, _⟩ => show win0_10.index t (0 : Fin 1) * 256 ≤ (i 0).val ∧ (i 0).val < win0_10.index t (0 : Fin 1) * 256 + 256; omega

end Cert.BlockIndex

end
-- ==== Proof.ArrayScore.lean ====
/-
  From blocks to the whole result array.

  Grid point `t` stages rows `256·t … 256·t + 255` of every input array and writes back rows `256·t … 256·t + 255`
  of the result. What it writes at row `q` of its block is the score of row `q` of the staged blocks (BlockScore.lean),
  that is, the score of row `256·t + q` of the arrays themselves. The 256 blocks tile the 65536 rows, so after the
  run the result array holds, at every row `p`, the score of row `p` of the arrays the region found.
-/
import proofs.«160819_j36352603193502_2_alg».proof.Proof.FrameIdeal
import proofs.«160819_j36352603193502_2_alg».proof.Proof.BlockScore
import proofs.«160819_j36352603193502_2_alg».proof.Proof.BlockIndex
import Idealize.ShloMosaic.Lib.Pipeline.Value

set_option maxRecDepth 16384

noncomputable section

open scoped BigOperators

namespace Cert.ArrayScore

open Idealize.ShloMosaic Idealize.ShloMosaic.TcCoe Idealize.SL.Sem Idealize.ShloMosaic.ValueIdx
open Cert.KernelIdeal Cert.KernelIdeal.Gen Cert.KernelIdeal.Frm Cert.Score Cert.BlockScore Cert.BlockIndex
open Idealize.ShloMosaic.Pipeline (Dat)

/-- The score of row `p`, from whole arrays: rows of the head, relation and tail arrays, their word lists, their
    masks, and the row's three joined biases. -/
def rowScore (he re te : S65536x60.Idx → EReal) (hw rw tw : S65536x24x60.Idx → EReal)
    (hm rm tm : S65536x24.Idx → BitVec 32) (bias : S65536x3.Idx → EReal) (p : Fin 65536) : EReal :=
  (0 - distance
        (embed (fun k : Fin 60 => he (ix2 p k)) (fun (l : Fin 24) (k : Fin 60) => hw (ix3 p l k))
          (fun l : Fin 24 => FloatOps.sitofp (F := Ideal) .f32 (hm (ix2 p l))))
        (embed (fun k : Fin 60 => re (ix2 p k)) (fun (l : Fin 24) (k : Fin 60) => rw (ix3 p l k))
          (fun l : Fin 24 => FloatOps.sitofp (F := Ideal) .f32 (rm (ix2 p l))))
        (embed (fun k : Fin 60 => te (ix2 p k)) (fun (l : Fin 24) (k : Fin 60) => tw (ix3 p l k))
          (fun l : Fin 24 => FloatOps.sitofp (F := Ideal) .f32 (tm (ix2 p l)))))
    + ∑ j : Fin 3, bias (ix2 p j)

variable (m : (ℓ : Loc nD τ sig) → Buf (Elt Ideal) ℓ) (ρ : Dev nD → PrngReg)

/-- The result array's contents after the run, as one function of the arrays the region found. -/
def result (c : Dev nD) : S65536.Idx → EReal := fun i =>
  rowScore (V m c main_v7) (V m c main_v21) (V m c main_v14) (V m c main_v28) (V m c main_v35) (V m c main_v42)
    (V m c main_arg11) (V m c main_arg12) (V m c main_arg13) (V m c main_v79) ⟨(i 0).val, (i 0).isLt⟩

/-! ## A block's entry is the array's entry at the block's row

Row `q` of point `t`'s block of any window is row `256·(t's block number) + q` of the window's array, at the
same remaining coordinates. -/

theorem rows0 (t : Fin cfg0.N) (q : Fin 256) (k : Fin 60) (hP : win0_10.index t (0 : Fin 1) * 256 + q.val < 65536) :
    ((cfg0.win 0).blk t).view.emb (ix2 q k) = (ix2 (⟨win0_10.index t (0 : Fin 1) * 256 + q.val, hP⟩ : Fin 65536) k : S65536x60.Idx) := by
  obtain ⟨a0, z0⟩ := moves_0 t
  funext a; apply Fin.ext
  match a with
  | ⟨0, _⟩ => show win0_0.index t (0 : Fin 2) * 256 + 1 * q.val = win0_10.index t (0 : Fin 1) * 256 + q.val; omega
  | ⟨1, _⟩ => show win0_0.index t (1 : Fin 2) * 60 + 1 * k.val = k.val; omega
theorem rows1 (t : Fin cfg0.N) (q : Fin 256) (k : Fin 60) (hP : win0_10.index t (0 : Fin 1) * 256 + q.val < 65536) :
    ((cfg0.win 1).blk t).view.emb (ix2 q k) = (ix2 (⟨win0_10.index t (0 : Fin 1) * 256 + q.val, hP⟩ : Fin 65536) k : S65536x60.Idx) := by
  obtain ⟨a0, z0⟩ := moves_1 t
  funext a; apply Fin.ext
  match a with
  | ⟨0, _⟩ => show win0_1.index t (0 : Fin 2) * 256 + 1 * q.val = win0_10.index t (0 : Fin 1) * 256 + q.val; omega
  | ⟨1, _⟩ => show win0_1.index t (1 : Fin 2) * 60 + 1 * k.val = k.val; omega
theorem rows2 (t : Fin cfg0.N) (q : Fin 256) (k : Fin 60) (hP : win0_10.index t (0 : Fin 1) * 256 + q.val < 65536) :
    ((cfg0.win 2).blk t).view.emb (ix2 q k) = (ix2 (⟨win0_10.index t (0 : Fin 1) * 256 + q.val, hP⟩ : Fin 65536) k : S65536x60.Idx) := by
  obtain ⟨a0, z0⟩ := moves_2 t
  funext a; apply Fin.ext
  match a with
  | ⟨0, _⟩ => show win0_2.index t (0 : Fin 2) * 256 + 1 * q.val = win0_10.index t (0 : Fin 1) * 256 + q.val; omega
  | ⟨1, _⟩ => show win0_2.index t (1 : Fin 2) * 60 + 1 * k.val = k.val; omega
theorem words3 (t : Fin cfg0.N) (q : Fin 256) (l : Fin 24) (k : Fin 60) (hP : win0_10.index t (0 : Fin 1) * 256 + q.val < 65536) :
    ((cfg0.win 3).blk t).view.emb (ix3 q l k) = (ix3 (⟨win0_10.index t (0 : Fin 1) * 256 + q.val, hP⟩ : Fin 65536) l k : S65536x24x60.Idx) := by
  obtain ⟨a0, y0, z0⟩ := moves_3 t
  funext a; apply Fin.ext
  match a with
  | ⟨0, _⟩ => show win0_3.index t (0 : Fin 3) * 256 + 1 * q.val = win0_10.index t (0 : Fin 1) * 256 + q.val; omega
  | ⟨1, _⟩ => show win0_3.index t (1 : Fin 3) * 24 + 1 * l.val = l.val; omega
  | ⟨2, _⟩ => show win0_3.index t (2 : Fin 3) * 60 + 1 * k.val = k.val; omega
theorem words4 (t : Fin cfg0.N) (q : Fin 256) (l : Fin 24) (k : Fin 60) (hP : win0_10.index t (0 : Fin 1) * 256 + q.val < 65536) :
    ((cfg0.win 4).blk t).view.emb (ix3 q l k) = (ix3 (⟨win0_10.index t (0 : Fin 1) * 256 + q.val, hP⟩ : Fin 65536) l k : S65536x24x60.Idx) := by
  obtain ⟨a0, y0, z0⟩ := moves_4 t
  funext a; apply Fin.ext
  match a with
  | ⟨0, _⟩ => show win0_4.index t (0 : Fin 3) * 256 + 1 * q.val = win0_10.index t (0 : Fin 1) * 256 + q.val; omega
  | ⟨1, _⟩ => show win0_4.index t (1 : Fin 3) * 24 + 1 * l.val = l.val; omega
  | ⟨2, _⟩ => show win0_4.index t (2 : Fin 3) * 60 + 1 * k.val = k.val; omega
theorem words5 (t : Fin cfg0.N) (q : Fin 256) (l : Fin 24) (k : Fin 60) (hP : win0_10.index t (0 : Fin 1) * 256 + q.val < 65536) :
    ((cfg0.win 5).blk t).view.emb (ix3 q l k) = (ix3 (⟨win0_10.index t (0 : Fin 1) * 256 + q.val, hP⟩ : Fin 65536) l k : S65536x24x60.Idx) := by
  obtain ⟨a0, y0, z0⟩ := moves_5 t
  funext a; apply Fin.ext
  match a with
  | ⟨0, _⟩ => show win0_5.index t (0 : Fin 3) * 256 + 1 * q.val = win0_10.index t (0 : Fin 1) * 256 + q.val; omega
  | ⟨1, _⟩ => show win0_5.index t (1 : Fin 3) * 24 + 1 * l.val = l.val; omega
  | ⟨2, _⟩ => show win0_5.index t (2 : Fin 3) * 60 + 1 * k.val = k.val; omega
theorem mask6 (t : Fin cfg0.N) (q : Fin 256) (l : Fin 24) (hP : win0_10.index t (0 : Fin 1) * 256 + q.val < 65536) :
    ((cfg0.win 6).blk t).view.emb (ix2 q l) = (ix2 (⟨win0_10.index t (0 : Fin 1) * 256 + q.val, hP⟩ : Fin 65536) l : S65536x24.Idx) := by
  obtain ⟨a0, z0⟩ := moves_6 t
  funext a; apply Fin.ext
  match a with
  | ⟨0, _⟩ => show win0_6.index t (0 : Fin 2) * 256 + 1 * q.val = win0_10.index t (0 : Fin 1) * 256 + q.val; omega
  | ⟨1, _⟩ => show win0_6.index t (1 : Fin 2) * 24 + 1 * l.val = l.val; omega
theorem mask7 (t : Fin cfg0.N) (q : Fin 256) (l : Fin 24) (hP : win0_10.index t (0 : Fin 1) * 256 + q.val < 65536) :
    ((cfg0.win 7).blk t).view.emb (ix2 q l) = (ix2 (⟨win0_10.index t (0 : Fin 1) * 256 + q.val, hP⟩ : Fin 65536) l : S65536x24.Idx) := by
  obtain ⟨a0, z0⟩ := moves_7 t
  funext a; apply Fin.ext
  match a with
  | ⟨0, _⟩ => show win0_7.index t (0 : Fin 2) * 256 + 1 * q.val = win0_10.index t (0 : Fin 1) * 256 + q.val; omega
  | ⟨1, _⟩ => show win0_7.index t (1 : Fin 2) * 24 + 1 * l.val = l.val; omega
theorem mask8 (t : Fin cfg0.N) (q : Fin 256) (l : Fin 24) (hP : win0_10.index t (0 : Fin 1) * 256 + q.val < 65536) :
    ((cfg0.win 8).blk t).view.emb (ix2 q l) = (ix2 (⟨win0_10.index t (0 : Fin 1) * 256 + q.val, hP⟩ : Fin 65536) l : S65536x24.Idx) := by
  obtain ⟨a0, z0⟩ := moves_8 t
  funext a; apply Fin.ext
  match a with
  | ⟨0, _⟩ => show win0_8.index t (0 : Fin 2) * 256 + 1 * q.val = win0_10.index t (0 : Fin 1) * 256 + q.val; omega
  | ⟨1, _⟩ => show win0_8.index t (1 : Fin 2) * 24 + 1 * l.val = l.val; omega
theorem bias9 (t : Fin cfg0.N) (q : Fin 256) (j : Fin 3) (hP : win0_10.index t (0 : Fin 1) * 256 + q.val < 65536) :
    ((cfg0.win 9).blk t).view.emb (ix2 q j) = (ix2 (⟨win0_10.index t (0 : Fin 1) * 256 + q.val, hP⟩ : Fin 65536) j : S65536x3.Idx) := by
  obtain ⟨a0, z0⟩ := moves_9 t
  funext a; apply Fin.ext
  match a with
  | ⟨0, _⟩ => show win0_9.index t (0 : Fin 2) * 256 + 1 * q.val = win0_10.index t (0 : Fin 1) * 256 + q.val; omega
  | ⟨1, _⟩ => show win0_9.index t (1 : Fin 2) * 3 + 1 * j.val = j.val; omega
theorem out10 (t : Fin cfg0.N) (q : Fin 256) (hP : win0_10.index t (0 : Fin 1) * 256 + q.val < 65536) :
    (⟨((((cfg0.win 10).blk t).view.emb (ix1 q)) 0).val, ((((cfg0.win 10).blk t).view.emb (ix1 q)) 0).isLt⟩ : Fin 65536)
      = ⟨win0_10.index t (0 : Fin 1) * 256 + q.val, hP⟩ :=
  Fin.ext (by show win0_10.index t (0 : Fin 1) * 256 + 1 * q.val = win0_10.index t (0 : Fin 1) * 256 + q.val; omega)

/-- A block read at an index is the window's array (as the region found it) at the block's embedding of the index. -/
theorem blk0 (c : Dev nD) (t : Fin cfg0.N) (j : S256x60.Idx) :
    iblk m c 0 t j = (V m c main_v7 : S65536x60.Idx → EReal) (((cfg0.win 0).blk t).view.emb j) := rfl
theorem blk1 (c : Dev nD) (t : Fin cfg0.N) (j : S256x60.Idx) :
    iblk m c 1 t j = (V m c main_v14 : S65536x60.Idx → EReal) (((cfg0.win 1).blk t).view.emb j) := rfl
theorem blk2 (c : Dev nD) (t : Fin cfg0.N) (j : S256x60.Idx) :
    iblk m c 2 t j = (V m c main_v21 : S65536x60.Idx → EReal) (((cfg0.win 2).blk t).view.emb j) := rfl
theorem blk3 (c : Dev nD) (t : Fin cfg0.N) (j : S256x24x60.Idx) :
    iblk m c 3 t j = (V m c main_v28 : S65536x24x60.Idx → EReal) (((cfg0.win 3).blk t).view.emb j) := rfl
theorem blk4 (c : Dev nD) (t : Fin cfg0.N) (j : S256x24x60.Idx) :
    iblk m c 4 t j = (V m c main_v35 : S65536x24x60.Idx → EReal) (((cfg0.win 4).blk t).view.emb j) := rfl
theorem blk5 (c : Dev nD) (t : Fin cfg0.N) (j : S256x24x60.Idx) :
    iblk m c 5 t j = (V m c main_v42 : S65536x24x60.Idx → EReal) (((cfg0.win 5).blk t).view.emb j) := rfl
theorem blk6 (c : Dev nD) (t : Fin cfg0.N) (j : S256x24.Idx) :
    iblk m c 6 t j = (V m c main_arg11 : S65536x24.Idx → BitVec 32) (((cfg0.win 6).blk t).view.emb j) := rfl
theorem blk7 (c : Dev nD) (t : Fin cfg0.N) (j : S256x24.Idx) :
    iblk m c 7 t j = (V m c main_arg12 : S65536x24.Idx → BitVec 32) (((cfg0.win 7).blk t).view.emb j) := rfl
theorem blk8 (c : Dev nD) (t : Fin cfg0.N) (j : S256x24.Idx) :
    iblk m c 8 t j = (V m c main_arg13 : S65536x24.Idx → BitVec 32) (((cfg0.win 8).blk t).view.emb j) := rfl
theorem blk9 (c : Dev nD) (t : Fin cfg0.N) (j : S256x3.Idx) :
    iblk m c 9 t j = (V m c main_v79 : S65536x3.Idx → EReal) (((cfg0.win 9).blk t).view.emb j) := rfl

set_option maxHeartbeats 4000000 in
/-- Row `q` of what point `t` computes is the score of row `256·(t's block number) + q` of the staged arrays. -/
theorem point_row (c : Dev nD) (t : Fin cfg0.N) (q : Fin 256) (hP : win0_10.index t (0 : Fin 1) * 256 + q.val < 65536) :
    (0 - distance (embed (rowAt (iblk m c 0 t) q) (wordsAt (iblk m c 3 t) q) (maskAt (iblk m c 6 t) q))
          (embed (rowAt (iblk m c 2 t) q) (wordsAt (iblk m c 4 t) q) (maskAt (iblk m c 7 t) q))
          (embed (rowAt (iblk m c 1 t) q) (wordsAt (iblk m c 5 t) q) (maskAt (iblk m c 8 t) q)))
        + ∑ j : Fin 3, biasAt (iblk m c 9 t) q j
      = rowScore (V m c main_v7) (V m c main_v21) (V m c main_v14) (V m c main_v28) (V m c main_v35) (V m c main_v42)
          (V m c main_arg11) (V m c main_arg12) (V m c main_arg13) (V m c main_v79) ⟨win0_10.index t (0 : Fin 1) * 256 + q.val, hP⟩ := by
  unfold rowScore rowAt wordsAt maskAt biasAt
  simp only [blk0, blk1, blk2, blk3, blk4, blk5, blk6, blk7, blk8, blk9,
    rows0 t q _ hP, rows1 t q _ hP, rows2 t q _ hP, words3 t q _ _ hP, words4 t q _ _ hP, words5 t q _ _ hP,
    mask6 t q _ hP, mask7 t q _ hP, mask8 t q _ hP, bias9 t q _ hP]

set_option maxHeartbeats 4000000 in
/-- WHAT POINT `t` WRITES BACK is block `t` of `result`. -/
theorem flushed_eq (c : Dev nD) (t : Fin cfg0.N) :
    (pointData m 0 c).flushed 10 t = ((cfg0.win 10).blk t).view.read (Elt Ideal) (result m c) := by
  show (cfg0.win 10).cut (grid0.coords t) ((pointData m 0 c).after 10 t) = _
  rw [after_out]
  unfold stored
  rw [View.canon_unit_zero zero1]
  simp only [View.ld_unit_zero (S := S256x60) zero2, View.ld_unit_zero (S := S256x24x60) zero3,
    View.ld_unit_zero (S := S256x24) zero2, View.ld_unit_zero (S := S256x3) zero2]
  funext j
  obtain ⟨q, rfl⟩ : ∃ q : Fin 256, j = ix1 q := ⟨j 0, eq_ix1 j⟩
  have hb := block_lt t
  have hq : q.val < 256 := q.isLt
  have hP : win0_10.index t (0 : Fin 1) * 256 + q.val < 65536 := by omega
  refine (block_score _ _ _ _ _ _ _ _ _ _ q).trans ?_
  refine (point_row m c t q hP).trans ?_
  show _ = result m c (((cfg0.win 10).blk t).view.emb (ix1 q))
  unfold result
  rw [out10 t q hP]

/-- THE RESULT ARRAY after the run. -/
theorem final (c : Dev nD) : (pointData m 0 c).arrAt 10 cfg0.N = result m c :=
  (pointData m 0 c).arrAt_eq_of_cover 10 (result m c) (fun t _ => flushed_eq m c t) covered

end Cert.ArrayScore

end
-- ==== Proof.LibJoin3.lean ====
/-
  Three arrays joined along one axis, read at an index; and a band of columns cut out of a matrix.

  A concatenation of three pieces along an axis holds, at an index, the piece whose span along that axis contains the
  index's coordinate there, read at the same index with that coordinate counted from the start of the piece. Stated
  for three matrices with a common number of rows joined side by side (along the column axis), and for three vectors
  joined end to end, with the extents as variables: the first piece's span is `[0, a)`, the second's `[a, a + b)`, the
  third's `[a + b, a + b + c)`.
-/
import Idealize.ShloMosaic.Lib.Pipeline.Value
import Idealize.ShloMosaic.Lib.ValueIdx

namespace Idealize.ShloMosaic.Join3

open Idealize.ShloMosaic.ValueIdx

variable {α : Type}

section Columns

variable {R a b c n : Nat}
  (x : (⟨2, ![R, a]⟩ : Shape).Idx → α) (y : (⟨2, ![R, b]⟩ : Shape).Idx → α) (z : (⟨2, ![R, c]⟩ : Shape).Idx → α)
  (h : Shape.Concatenates (([⟨⟨2, ![R, a]⟩, x⟩, ⟨⟨2, ![R, b]⟩, y⟩, ⟨⟨2, ![R, c]⟩, z⟩] : List ((s : Shape) × (s.Idx → α))).map (·.1)) ⟨2, ![R, n]⟩ (1 : Fin 2))
  (r : Fin R) (q : Fin n)

/-- A column in the first piece's span. -/
theorem cols_first (hq : q.val < a) :
    concatenate ⟨2, ![R, n]⟩ (1 : Fin 2) [⟨⟨2, ![R, a]⟩, x⟩, ⟨⟨2, ![R, b]⟩, y⟩, ⟨⟨2, ![R, c]⟩, z⟩] h (ix2 r q) = x (ix2 r ⟨q.val, hq⟩) :=
  concatenate_apply_piece (1 : Fin 2) [⟨⟨2, ![R, a]⟩, x⟩, ⟨⟨2, ![R, b]⟩, y⟩, ⟨⟨2, ![R, c]⟩, z⟩] h (ix2 r q) 0 (by simp) ⟨2, ![R, a]⟩ x rfl rfl 0 rfl (ix2 r ⟨q.val, hq⟩)
    (fun d hd => by match d with | ⟨0, _⟩ => rfl | ⟨1, _⟩ => exact absurd rfl hd) (Nat.zero_add _)

/-- A column in the second piece's span. -/
theorem cols_second (hq : a ≤ q.val) (hq' : q.val - a < b) :
    concatenate ⟨2, ![R, n]⟩ (1 : Fin 2) [⟨⟨2, ![R, a]⟩, x⟩, ⟨⟨2, ![R, b]⟩, y⟩, ⟨⟨2, ![R, c]⟩, z⟩] h (ix2 r q) = y (ix2 r ⟨q.val - a, hq'⟩) :=
  concatenate_apply_piece (1 : Fin 2) [⟨⟨2, ![R, a]⟩, x⟩, ⟨⟨2, ![R, b]⟩, y⟩, ⟨⟨2, ![R, c]⟩, z⟩] h (ix2 r q) 1 (by simp) ⟨2, ![R, b]⟩ y rfl rfl a (by simp) (ix2 r ⟨q.val - a, hq'⟩)
    (fun d hd => by match d with | ⟨0, _⟩ => rfl | ⟨1, _⟩ => exact absurd rfl hd) (by show a + (q.val - a) = q.val; omega)

/-- A column in the third piece's span. -/
theorem cols_third (hq : a + b ≤ q.val) (hq' : q.val - (a + b) < c) :
    concatenate ⟨2, ![R, n]⟩ (1 : Fin 2) [⟨⟨2, ![R, a]⟩, x⟩, ⟨⟨2, ![R, b]⟩, y⟩, ⟨⟨2, ![R, c]⟩, z⟩] h (ix2 r q) = z (ix2 r ⟨q.val - (a + b), hq'⟩) :=
  concatenate_apply_piece (1 : Fin 2) [⟨⟨2, ![R, a]⟩, x⟩, ⟨⟨2, ![R, b]⟩, y⟩, ⟨⟨2, ![R, c]⟩, z⟩] h (ix2 r q) 2 (by simp) ⟨2, ![R, c]⟩ z rfl rfl (a + b) (by simp) (ix2 r ⟨q.val - (a + b), hq'⟩)
    (fun d hd => by match d with | ⟨0, _⟩ => rfl | ⟨1, _⟩ => exact absurd rfl hd) (by show a + b + (q.val - (a + b)) = q.val; omega)

end Columns

section Entries

variable {a b c n : Nat}
  (x : (⟨1, ![a]⟩ : Shape).Idx → α) (y : (⟨1, ![b]⟩ : Shape).Idx → α) (z : (⟨1, ![c]⟩ : Shape).Idx → α)
  (h : Shape.Concatenates (([⟨⟨1, ![a]⟩, x⟩, ⟨⟨1, ![b]⟩, y⟩, ⟨⟨1, ![c]⟩, z⟩] : List ((s : Shape) × (s.Idx → α))).map (·.1)) ⟨1, ![n]⟩ (0 : Fin 1))
  (q : Fin n)

/-- An entry in the first piece's span. -/
theorem entries_first (hq : q.val < a) :
    concatenate ⟨1, ![n]⟩ (0 : Fin 1) [⟨⟨1, ![a]⟩, x⟩, ⟨⟨1, ![b]⟩, y⟩, ⟨⟨1, ![c]⟩, z⟩] h (ix1 q) = x (ix1 ⟨q.val, hq⟩) :=
  concatenate_apply_piece (0 : Fin 1) [⟨⟨1, ![a]⟩, x⟩, ⟨⟨1, ![b]⟩, y⟩, ⟨⟨1, ![c]⟩, z⟩] h (ix1 q) 0 (by simp) ⟨1, ![a]⟩ x rfl rfl 0 rfl (ix1 ⟨q.val, hq⟩)
    (fun d hd => by match d with | ⟨0, _⟩ => exact absurd rfl hd) (Nat.zero_add _)

/-- An entry in the second piece's span. -/
theorem entries_second (hq : a ≤ q.val) (hq' : q.val - a < b) :
    concatenate ⟨1, ![n]⟩ (0 : Fin 1) [⟨⟨1, ![a]⟩, x⟩, ⟨⟨1, ![b]⟩, y⟩, ⟨⟨1, ![c]⟩, z⟩] h (ix1 q) = y (ix1 ⟨q.val - a, hq'⟩) :=
  concatenate_apply_piece (0 : Fin 1) [⟨⟨1, ![a]⟩, x⟩, ⟨⟨1, ![b]⟩, y⟩, ⟨⟨1, ![c]⟩, z⟩] h (ix1 q) 1 (by simp) ⟨1, ![b]⟩ y rfl rfl a (by simp) (ix1 ⟨q.val - a, hq'⟩)
    (fun d hd => by match d with | ⟨0, _⟩ => exact absurd rfl hd) (by show a + (q.val - a) = q.val; omega)

/-- An entry in the third piece's span. -/
theorem entries_third (hq : a + b ≤ q.val) (hq' : q.val - (a + b) < c) :
    concatenate ⟨1, ![n]⟩ (0 : Fin 1) [⟨⟨1, ![a]⟩, x⟩, ⟨⟨1, ![b]⟩, y⟩, ⟨⟨1, ![c]⟩, z⟩] h (ix1 q) = z (ix1 ⟨q.val - (a + b), hq'⟩) :=
  concatenate_apply_piece (0 : Fin 1) [⟨⟨1, ![a]⟩, x⟩, ⟨⟨1, ![b]⟩, y⟩, ⟨⟨1, ![c]⟩, z⟩] h (ix1 q) 2 (by simp) ⟨1, ![c]⟩ z rfl rfl (a + b) (by simp) (ix1 ⟨q.val - (a + b), hq'⟩)
    (fun d hd => by match d with | ⟨0, _⟩ => exact absurd rfl hd) (by show a + b + (q.val - (a + b)) = q.val; omega)

end Entries

/-- The inverse reading: a band of columns cut out of a matrix, from column `o` on, read at `(p, l)` is the matrix at
    `(p, o + l)`. -/
theorem cols_cut {R C C' : Nat} (o : Nat) (v : (⟨2, ![R, C]⟩ : Shape).Idx → α)
    (h : (⟨2, ![R, C]⟩ : Shape).Slices ![0, o] ⟨2, ![R, C']⟩) (p : Fin R) (l : Fin C') (hl : o + l.val < C) :
    extractStridedSlice ⟨2, ![R, C']⟩ ![0, o] v h (ix2 p l) = v (ix2 p ⟨o + l.val, hl⟩) :=
  extractStridedSlice_apply _ v h _ _ (fun d => by
    match d with
    | ⟨0, _⟩ => exact (Nat.zero_add _).symm
    | ⟨1, _⟩ => rfl)

end Idealize.ShloMosaic.Join3
-- ==== Proof.HostArrays.lean ====
/-
  The arrays the region stages, as functions of @main's arguments.

  Before the region, @main's host operations turn each index argument into a row selection (a negative index is
  wrapped once, then rows are gathered) of one of the embedding tables, and join the three gathered bias columns side by
  side into one `[65536, 3]` array. The reference program performs the very same selections on the same arguments.
  This module reads each staged array off the line of host operations and identifies it with the reference's
  corresponding gathered array — as one opaque array each: which rows a gather picks is never looked at. The word
  table is first narrowed to the short float format and widened again in the body; at the exact values both changes of
  format are the identity, so the gathered words are the reference's gathered words. Of the joined bias array only
  the sum of a row's three entries is needed: it is the sum of the three gathered biases at that row.
-/
import proofs.«160819_j36352603193502_2_alg».proof.Proof.FrameIdeal
import proofs.«160819_j36352603193502_2_alg».proof.Proof.Gen.ReferenceIdeal.Read
import proofs.«160819_j36352603193502_2_alg».proof.Proof.LibJoin3
import Idealize.ShloMosaic.Lib.StableHlo.Run
import Idealize.ShloMosaic.Lib.ValueIdx

-- the host line is a literal list of 101 operations: walking it recurses once per operation
set_option maxRecDepth 16384

noncomputable section

open scoped BigOperators

namespace Cert.HostArrays

open Idealize.ShloMosaic Idealize.ShloMosaic.TcCoe Idealize.SL.Sem Idealize.ShloMosaic.StableHlo Idealize.ShloMosaic.ValueIdx
open Cert.KernelIdeal Cert.KernelIdeal.Gen Cert.KernelIdeal.Frm

/-- An operation with three operands listed as a literal family: its result holds its function of the three
    operands' contents, each read at its own array (the form in which the reading of a line of operations goes on
    into the operands). -/
theorem nary3_result' {nD : Nat} {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Read one array off the line of host operations: every operation's result at its own array is its function of
    its operands' contents, and at any other array what was there. -/
macro "host_line" : tactic =>
  `(tactic| simp (disch := decide) only [after_cons, after_nil,
      nullary_result', unary_result', binary_result', ternary_result', nary3_result',
      nullary_result_ne', unary_result_ne', binary_result_ne', ternary_result_ne', nary_result_ne'])

variable (m : (ℓ : Loc nD τ sig) → Buf (Elt Ideal) ℓ)

/-! ## The gathered rows -/

set_option maxHeartbeats 4000000 in
/-- The head rows the region stages are the reference's gathered head rows. -/
theorem head_rows (c : Dev nD) :
    (V m c main_v7 : S65536x60.Idx → EReal)
      = Cert.ReferenceIdeal.Read.val_main_v6 (F := Ideal) (m ((c : Thread nD τ).loc main_arg0)) (m ((c : Thread nD τ).loc main_arg5)) := by
  dsimp only [V, hostOps0]
  host_line
  rfl

set_option maxHeartbeats 4000000 in
/-- The tail rows. -/
theorem tail_rows (c : Dev nD) :
    (V m c main_v14 : S65536x60.Idx → EReal)
      = Cert.ReferenceIdeal.Read.val_main_v30 (F := Ideal) (m ((c : Thread nD τ).loc main_arg0)) (m ((c : Thread nD τ).loc main_arg7)) := by
  dsimp only [V, hostOps0]
  host_line
  rfl

set_option maxHeartbeats 4000000 in
/-- The relation rows. -/
theorem rel_rows (c : Dev nD) :
    (V m c main_v21 : S65536x60.Idx → EReal)
      = Cert.ReferenceIdeal.Read.val_main_v18 (F := Ideal) (m ((c : Thread nD τ).loc main_arg1)) (m ((c : Thread nD τ).loc main_arg6)) := by
  dsimp only [V, hostOps0]
  host_line
  rfl

/-! ## The gathered words (narrowed before the gather: the same numbers) -/

set_option maxHeartbeats 4000000 in
/-- The head's words. -/
theorem head_words (c : Dev nD) :
    (V m c main_v28 : S65536x24x60.Idx → EReal)
      = Cert.ReferenceIdeal.Read.val_main_v42 (F := Ideal) (m ((c : Thread nD τ).loc main_arg2)) (m ((c : Thread nD τ).loc main_arg8)) := by
  dsimp only [V, hostOps0]
  host_line
  rfl

set_option maxHeartbeats 4000000 in
/-- The relation's words. -/
theorem rel_words (c : Dev nD) :
    (V m c main_v35 : S65536x24x60.Idx → EReal)
      = Cert.ReferenceIdeal.Read.val_main_v65 (F := Ideal) (m ((c : Thread nD τ).loc main_arg2)) (m ((c : Thread nD τ).loc main_arg9)) := by
  dsimp only [V, hostOps0]
  host_line
  rfl

set_option maxHeartbeats 4000000 in
/-- The tail's words. -/
theorem tail_words (c : Dev nD) :
    (V m c main_v42 : S65536x24x60.Idx → EReal)
      = Cert.ReferenceIdeal.Read.val_main_v88 (F := Ideal) (m ((c : Thread nD τ).loc main_arg2)) (m ((c : Thread nD τ).loc main_arg10)) := by
  dsimp only [V, hostOps0]
  host_line
  rfl

/-! ## The three biases, joined -/

/-- A vector laid out as a column reads, at `(p, z)`, the vector at `p`. -/
theorem column_at (v : S65536.Idx → EReal) (p : Fin 65536) (z : Fin 1) :
    broadcastInDim S65536x1 ![0] bcast_S65536_S65536x1_0 v (ix2 p z) = v (ix1 p) :=
  broadcastInDim_apply _ bcast_S65536_S65536x1_0 v (ix2 p z) (ix1 p) (fun a => match a with
    | ⟨0, _⟩ => by show p.val = if (65536 : Nat) = 1 then 0 else p.val; rw [if_neg (by decide)])

set_option maxHeartbeats 4000000 in
/-- The staged bias array is the three gathered bias vectors, each as a column, side by side. -/
theorem biases_joined (c : Dev nD) :
    (V m c main_v79 : S65536x3.Idx → EReal)
      = concatenate S65536x3 1
          [⟨S65536x1, broadcastInDim S65536x1 ![0] bcast_S65536_S65536x1_0
              (Cert.ReferenceIdeal.Read.val_main_v119 (F := Ideal) (m ((c : Thread nD τ).loc main_arg3)) (m ((c : Thread nD τ).loc main_arg5)))⟩,
           ⟨S65536x1, broadcastInDim S65536x1 ![0] bcast_S65536_S65536x1_0
              (Cert.ReferenceIdeal.Read.val_main_v131 (F := Ideal) (m ((c : Thread nD τ).loc main_arg3)) (m ((c : Thread nD τ).loc main_arg7)))⟩,
           ⟨S65536x1, broadcastInDim S65536x1 ![0] bcast_S65536_S65536x1_0
              (Cert.ReferenceIdeal.Read.val_main_v143 (F := Ideal) (m ((c : Thread nD τ).loc main_arg4)) (m ((c : Thread nD τ).loc main_arg6)))⟩]
          concatenates_S65536x1_S65536x1_S65536x1_S65536x3_d1 := by
  dsimp only [V, hostOps0]
  host_line
  rfl

/-- The sum of a row's three staged biases is the sum of the three gathered biases at that row. -/
theorem bias_sum (c : Dev nD) (p : Fin 65536) :
    (∑ j : Fin 3, ((V m c main_v79 : S65536x3.Idx → EReal) (ix2 p j) : EReal) : EReal)
      = Cert.ReferenceIdeal.Read.val_main_v119 (F := Ideal) (m ((c : Thread nD τ).loc main_arg3)) (m ((c : Thread nD τ).loc main_arg5)) (ix1 p)
        + Cert.ReferenceIdeal.Read.val_main_v131 (F := Ideal) (m ((c : Thread nD τ).loc main_arg3)) (m ((c : Thread nD τ).loc main_arg7)) (ix1 p)
        + Cert.ReferenceIdeal.Read.val_main_v143 (F := Ideal) (m ((c : Thread nD τ).loc main_arg4)) (m ((c : Thread nD τ).loc main_arg6)) (ix1 p) := by
  rw [biases_joined, Fin.sum_univ_three]
  generalize Cert.ReferenceIdeal.Read.val_main_v119 (F := Ideal) (m ((c : Thread nD τ).loc main_arg3)) (m ((c : Thread nD τ).loc main_arg5)) = b0
  generalize Cert.ReferenceIdeal.Read.val_main_v131 (F := Ideal) (m ((c : Thread nD τ).loc main_arg3)) (m ((c : Thread nD τ).loc main_arg7)) = b1
  generalize Cert.ReferenceIdeal.Read.val_main_v143 (F := Ideal) (m ((c : Thread nD τ).loc main_arg4)) (m ((c : Thread nD τ).loc main_arg6)) = b2
  have e0 := Idealize.ShloMosaic.Join3.cols_first (R := 65536) (a := 1) (b := 1) (c := 1) (n := 3)
    (broadcastInDim S65536x1 ![0] bcast_S65536_S65536x1_0 b0) (broadcastInDim S65536x1 ![0] bcast_S65536_S65536x1_0 b1)
    (broadcastInDim S65536x1 ![0] bcast_S65536_S65536x1_0 b2) concatenates_S65536x1_S65536x1_S65536x1_S65536x3_d1 p (0 : Fin 3) (by decide)
  have e1 := Idealize.ShloMosaic.Join3.cols_second (R := 65536) (a := 1) (b := 1) (c := 1) (n := 3)
    (broadcastInDim S65536x1 ![0] bcast_S65536_S65536x1_0 b0) (broadcastInDim S65536x1 ![0] bcast_S65536_S65536x1_0 b1)
    (broadcastInDim S65536x1 ![0] bcast_S65536_S65536x1_0 b2) concatenates_S65536x1_S65536x1_S65536x1_S65536x3_d1 p (1 : Fin 3) (by decide) (by decide)
  have e2 := Idealize.ShloMosaic.Join3.cols_third (R := 65536) (a := 1) (b := 1) (c := 1) (n := 3)
    (broadcastInDim S65536x1 ![0] bcast_S65536_S65536x1_0 b0) (broadcastInDim S65536x1 ![0] bcast_S65536_S65536x1_0 b1)
    (broadcastInDim S65536x1 ![0] bcast_S65536_S65536x1_0 b2) concatenates_S65536x1_S65536x1_S65536x1_S65536x3_d1 p (2 : Fin 3) (by decide) (by decide)
  rw [column_at] at e0 e1 e2
  exact congrArg₂ (· + ·) (congrArg₂ (· + ·) e0 e1) e2

end Cert.HostArrays

end
-- ==== Proof.RefScore.lean ====
/-
  The reference's result, one row at a time.

  The reference gathers, for each of the 65536 triples, the head, relation and tail rows, their 24 word rows
  each and their three biases; everything after the gathers acts row by row. Read at row `p`, its result is
  the score of `Cert.Score` evaluated on row `p` of the gathered arrays: each gathered row is divided by its
  guarded length, the word rows' directions are averaged under the mask, the three vectors are combined into
  the length of `head + relation − tail`, and the negated length receives the three gathered biases. The
  gathered arrays themselves are left as they are: which rows they hold is not the concern of this module.
-/
import proofs.«160819_j36352603193502_2_alg».proof.Proof.Gen.ReferenceIdeal.Read
import proofs.«160819_j36352603193502_2_alg».proof.Proof.Score
import Idealize.ShloMosaic.Lib.ValueIdx

noncomputable section

open scoped BigOperators

namespace Cert.RefScore

open Idealize.ShloMosaic Idealize.ShloMosaic.ValueIdx Cert.ReferenceIdeal Cert.ReferenceIdeal.Read Cert.Score

/-- Row `p` of a matrix of 65536 rows of 60 numbers. -/
abbrev rowOf (G : S65536x60.Idx → EReal) (p : Fin 65536) : Fin 60 → EReal := fun k => G (ix2 p k)
/-- The 24 word rows at `p` of an array of 65536 lists of 24 rows of 60 numbers. -/
abbrev wordsOf (W : S65536x24x60.Idx → EReal) (p : Fin 65536) : Fin 24 → Fin 60 → EReal := fun l k => W (ix3 p l k)
/-- The mask row at `p`, its integers read as numbers. -/
abbrev maskOf (x : (⟨S65536x24, .i32⟩ : BufTy).Contents (Elt Ideal)) (p : Fin 65536) : Fin 24 → EReal := fun l => FloatOps.sitofp (F := Ideal) .f32 (x (ix2 p l))

/-! ## Index bookkeeping

Between the gathers and the result the reference only reshapes, spreads and sums along fixed axes. Each such
step reads its operand at an index computed from the result's index; at an index given by its coordinates the
computed index is again given by coordinates, which is all these equations say. -/

theorem at_idx_main_call6_v1 (a0 : Fin 65536) (k : Fin 60) :
    idx_main_call6_v1 (ix1 a0) k = (ix2 a0 k : S65536x60.Idx) :=
  funext fun a => Fin.ext (by match a with | ⟨0, _⟩ => rfl | ⟨1, _⟩ => rfl)
theorem at_idx_main_v10 (a0 : Fin 65536) (a1 : Fin 60) :
    idx_main_v10 (ix2 a0 a1) = (ix2 a0 (⟨0, Nat.one_pos⟩ : Fin 1) : S65536x1.Idx) :=
  funext fun a => Fin.ext (by match a with | ⟨0, _⟩ => rfl | ⟨1, _⟩ => rfl)
theorem at_idx_main_call0_v2 (a0 : Fin 65536) (a1 : Fin 1) :
    idx_main_call0_v2 (ix2 a0 a1) = (ix1 a0 : S65536.Idx) :=
  funext fun a => Fin.ext (by match a with | ⟨0, _⟩ => rfl)
theorem at_idx_main_call0_v1 (a0 : Fin 65536) (k : Fin 60) :
    idx_main_call0_v1 (ix1 a0) k = (ix2 a0 k : S65536x60.Idx) :=
  funext fun a => Fin.ext (by match a with | ⟨0, _⟩ => rfl | ⟨1, _⟩ => rfl)
theorem at_idx_main_v55 (a0 : Fin 65536) (a1 : Fin 60) (k : Fin 24) :
    idx_main_v55 (ix2 a0 a1) k = (ix3 a0 k a1 : S65536x24x60.Idx) :=
  funext fun a => Fin.ext (by match a with | ⟨0, _⟩ => rfl | ⟨1, _⟩ => rfl | ⟨2, _⟩ => rfl)
theorem at_idx_main_v46 (a0 : Fin 65536) (a1 : Fin 24) (a2 : Fin 60) :
    idx_main_v46 (ix3 a0 a1 a2) = (ix3 a0 a1 (⟨0, Nat.one_pos⟩ : Fin 1) : S65536x24x1.Idx) :=
  funext fun a => Fin.ext (by match a with | ⟨0, _⟩ => rfl | ⟨1, _⟩ => rfl | ⟨2, _⟩ => rfl)
theorem at_idx_main_call3_v2 (a0 : Fin 65536) (a1 : Fin 24) (a2 : Fin 1) :
    idx_main_call3_v2 (ix3 a0 a1 a2) = (ix2 a0 a1 : S65536x24.Idx) :=
  funext fun a => Fin.ext (by match a with | ⟨0, _⟩ => rfl | ⟨1, _⟩ => rfl)
theorem at_idx_main_call3_v1 (a0 : Fin 65536) (a1 : Fin 24) (k : Fin 60) :
    idx_main_call3_v1 (ix2 a0 a1) k = (ix3 a0 a1 k : S65536x24x60.Idx) :=
  funext fun a => Fin.ext (by match a with | ⟨0, _⟩ => rfl | ⟨1, _⟩ => rfl | ⟨2, _⟩ => rfl)
theorem at_idx_main_v53 (a0 : Fin 65536) (a1 : Fin 24) (a2 : Fin 60) :
    idx_main_v53 (ix3 a0 a1 a2) = (ix3 a0 a1 (⟨0, Nat.one_pos⟩ : Fin 1) : S65536x24x1.Idx) :=
  funext fun a => Fin.ext (by match a with | ⟨0, _⟩ => rfl | ⟨1, _⟩ => rfl | ⟨2, _⟩ => rfl)
theorem at_idx_main_v49 (a0 : Fin 65536) (a1 : Fin 24) (a2 : Fin 1) :
    idx_main_v49 (ix3 a0 a1 a2) = (ix2 a0 a1 : S65536x24.Idx) :=
  funext fun a => Fin.ext (by match a with | ⟨0, _⟩ => rfl | ⟨1, _⟩ => rfl)
theorem at_idx_main_v56 (a0 : Fin 65536) (a1 : Fin 60) :
    idx_main_v56 (ix2 a0 a1) = (ix2 a0 (⟨0, Nat.one_pos⟩ : Fin 1) : S65536x1.Idx) :=
  funext fun a => Fin.ext (by match a with | ⟨0, _⟩ => rfl | ⟨1, _⟩ => rfl)
theorem at_idx_main_v50 (a0 : Fin 65536) (a1 : Fin 1) (k : Fin 24) :
    idx_main_v50 (ix2 a0 a1) k = (ix3 a0 k a1 : S65536x24x1.Idx) :=
  funext fun a => Fin.ext (by match a with | ⟨0, _⟩ => rfl | ⟨1, _⟩ => rfl | ⟨2, _⟩ => rfl)
theorem at_idx_main_v22 (a0 : Fin 65536) (a1 : Fin 60) :
    idx_main_v22 (ix2 a0 a1) = (ix2 a0 (⟨0, Nat.one_pos⟩ : Fin 1) : S65536x1.Idx) :=
  funext fun a => Fin.ext (by match a with | ⟨0, _⟩ => rfl | ⟨1, _⟩ => rfl)
theorem at_idx_main_call1_v2 (a0 : Fin 65536) (a1 : Fin 1) :
    idx_main_call1_v2 (ix2 a0 a1) = (ix1 a0 : S65536.Idx) :=
  funext fun a => Fin.ext (by match a with | ⟨0, _⟩ => rfl)
theorem at_idx_main_call1_v1 (a0 : Fin 65536) (k : Fin 60) :
    idx_main_call1_v1 (ix1 a0) k = (ix2 a0 k : S65536x60.Idx) :=
  funext fun a => Fin.ext (by match a with | ⟨0, _⟩ => rfl | ⟨1, _⟩ => rfl)
theorem at_idx_main_v78 (a0 : Fin 65536) (a1 : Fin 60) (k : Fin 24) :
    idx_main_v78 (ix2 a0 a1) k = (ix3 a0 k a1 : S65536x24x60.Idx) :=
  funext fun a => Fin.ext (by match a with | ⟨0, _⟩ => rfl | ⟨1, _⟩ => rfl | ⟨2, _⟩ => rfl)
theorem at_idx_main_v69 (a0 : Fin 65536) (a1 : Fin 24) (a2 : Fin 60) :
    idx_main_v69 (ix3 a0 a1 a2) = (ix3 a0 a1 (⟨0, Nat.one_pos⟩ : Fin 1) : S65536x24x1.Idx) :=
  funext fun a => Fin.ext (by match a with | ⟨0, _⟩ => rfl | ⟨1, _⟩ => rfl | ⟨2, _⟩ => rfl)
theorem at_idx_main_call4_v2 (a0 : Fin 65536) (a1 : Fin 24) (a2 : Fin 1) :
    idx_main_call4_v2 (ix3 a0 a1 a2) = (ix2 a0 a1 : S65536x24.Idx) :=
  funext fun a => Fin.ext (by match a with | ⟨0, _⟩ => rfl | ⟨1, _⟩ => rfl)
theorem at_idx_main_call4_v1 (a0 : Fin 65536) (a1 : Fin 24) (k : Fin 60) :
    idx_main_call4_v1 (ix2 a0 a1) k = (ix3 a0 a1 k : S65536x24x60.Idx) :=
  funext fun a => Fin.ext (by match a with | ⟨0, _⟩ => rfl | ⟨1, _⟩ => rfl | ⟨2, _⟩ => rfl)
theorem at_idx_main_v76 (a0 : Fin 65536) (a1 : Fin 24) (a2 : Fin 60) :
    idx_main_v76 (ix3 a0 a1 a2) = (ix3 a0 a1 (⟨0, Nat.one_pos⟩ : Fin 1) : S65536x24x1.Idx) :=
  funext fun a => Fin.ext (by match a with | ⟨0, _⟩ => rfl | ⟨1, _⟩ => rfl | ⟨2, _⟩ => rfl)
theorem at_idx_main_v72 (a0 : Fin 65536) (a1 : Fin 24) (a2 : Fin 1) :
    idx_main_v72 (ix3 a0 a1 a2) = (ix2 a0 a1 : S65536x24.Idx) :=
  funext fun a => Fin.ext (by match a with | ⟨0, _⟩ => rfl | ⟨1, _⟩ => rfl)
theorem at_idx_main_v79 (a0 : Fin 65536) (a1 : Fin 60) :
    idx_main_v79 (ix2 a0 a1) = (ix2 a0 (⟨0, Nat.one_pos⟩ : Fin 1) : S65536x1.Idx) :=
  funext fun a => Fin.ext (by match a with | ⟨0, _⟩ => rfl | ⟨1, _⟩ => rfl)
theorem at_idx_main_v73 (a0 : Fin 65536) (a1 : Fin 1) (k : Fin 24) :
    idx_main_v73 (ix2 a0 a1) k = (ix3 a0 k a1 : S65536x24x1.Idx) :=
  funext fun a => Fin.ext (by match a with | ⟨0, _⟩ => rfl | ⟨1, _⟩ => rfl | ⟨2, _⟩ => rfl)
theorem at_idx_main_v34 (a0 : Fin 65536) (a1 : Fin 60) :
    idx_main_v34 (ix2 a0 a1) = (ix2 a0 (⟨0, Nat.one_pos⟩ : Fin 1) : S65536x1.Idx) :=
  funext fun a => Fin.ext (by match a with | ⟨0, _⟩ => rfl | ⟨1, _⟩ => rfl)
theorem at_idx_main_call2_v2 (a0 : Fin 65536) (a1 : Fin 1) :
    idx_main_call2_v2 (ix2 a0 a1) = (ix1 a0 : S65536.Idx) :=
  funext fun a => Fin.ext (by match a with | ⟨0, _⟩ => rfl)
theorem at_idx_main_call2_v1 (a0 : Fin 65536) (k : Fin 60) :
    idx_main_call2_v1 (ix1 a0) k = (ix2 a0 k : S65536x60.Idx) :=
  funext fun a => Fin.ext (by match a with | ⟨0, _⟩ => rfl | ⟨1, _⟩ => rfl)
theorem at_idx_main_v101 (a0 : Fin 65536) (a1 : Fin 60) (k : Fin 24) :
    idx_main_v101 (ix2 a0 a1) k = (ix3 a0 k a1 : S65536x24x60.Idx) :=
  funext fun a => Fin.ext (by match a with | ⟨0, _⟩ => rfl | ⟨1, _⟩ => rfl | ⟨2, _⟩ => rfl)
theorem at_idx_main_v92 (a0 : Fin 65536) (a1 : Fin 24) (a2 : Fin 60) :
    idx_main_v92 (ix3 a0 a1 a2) = (ix3 a0 a1 (⟨0, Nat.one_pos⟩ : Fin 1) : S65536x24x1.Idx) :=
  funext fun a => Fin.ext (by match a with | ⟨0, _⟩ => rfl | ⟨1, _⟩ => rfl | ⟨2, _⟩ => rfl)
theorem at_idx_main_call5_v2 (a0 : Fin 65536) (a1 : Fin 24) (a2 : Fin 1) :
    idx_main_call5_v2 (ix3 a0 a1 a2) = (ix2 a0 a1 : S65536x24.Idx) :=
  funext fun a => Fin.ext (by match a with | ⟨0, _⟩ => rfl | ⟨1, _⟩ => rfl)
theorem at_idx_main_call5_v1 (a0 : Fin 65536) (a1 : Fin 24) (k : Fin 60) :
    idx_main_call5_v1 (ix2 a0 a1) k = (ix3 a0 a1 k : S65536x24x60.Idx) :=
  funext fun a => Fin.ext (by match a with | ⟨0, _⟩ => rfl | ⟨1, _⟩ => rfl | ⟨2, _⟩ => rfl)
theorem at_idx_main_v99 (a0 : Fin 65536) (a1 : Fin 24) (a2 : Fin 60) :
    idx_main_v99 (ix3 a0 a1 a2) = (ix3 a0 a1 (⟨0, Nat.one_pos⟩ : Fin 1) : S65536x24x1.Idx) :=
  funext fun a => Fin.ext (by match a with | ⟨0, _⟩ => rfl | ⟨1, _⟩ => rfl | ⟨2, _⟩ => rfl)
theorem at_idx_main_v95 (a0 : Fin 65536) (a1 : Fin 24) (a2 : Fin 1) :
    idx_main_v95 (ix3 a0 a1 a2) = (ix2 a0 a1 : S65536x24.Idx) :=
  funext fun a => Fin.ext (by match a with | ⟨0, _⟩ => rfl | ⟨1, _⟩ => rfl)
theorem at_idx_main_v102 (a0 : Fin 65536) (a1 : Fin 60) :
    idx_main_v102 (ix2 a0 a1) = (ix2 a0 (⟨0, Nat.one_pos⟩ : Fin 1) : S65536x1.Idx) :=
  funext fun a => Fin.ext (by match a with | ⟨0, _⟩ => rfl | ⟨1, _⟩ => rfl)
theorem at_idx_main_v96 (a0 : Fin 65536) (a1 : Fin 1) (k : Fin 24) :
    idx_main_v96 (ix2 a0 a1) k = (ix3 a0 k a1 : S65536x24x1.Idx) :=
  funext fun a => Fin.ext (by match a with | ⟨0, _⟩ => rfl | ⟨1, _⟩ => rfl | ⟨2, _⟩ => rfl)

/-! ## A gathered row divided by its guarded length -/

/-- The head's normalised row at `p` is the direction of row `p` of the gathered head rows. -/
theorem head_direction (x0 : (⟨S500000x60, .f32⟩ : BufTy).Contents (Elt Ideal)) (x5 : (⟨S65536, .i32⟩ : BufTy).Contents (Elt Ideal)) (p : Fin 65536) (k : Fin 60) :
    val_main_v11 (F := Ideal) x0 x5 (ix2 p k) = direction (rowOf (val_main_v6 (F := Ideal) x0 x5) p) k := by
  simp only [val_main_v11_apply, val_main_v10_apply, val_main_v9_apply, val_main_v7_apply, val_main_call0_v2_apply, val_main_call0_v1_apply, val_main_call0_cst_apply, val_main_call0_v0_apply, val_main_v8_apply, val_main_cst_apply,
    at_idx_main_v10, at_idx_main_call0_v2, at_idx_main_call0_v1,
    Ideal.hostDivf_def, Ideal.divf_def, Ideal.mulf_def, Ideal.addf_def, Ideal.subf_def, Ideal.maximumf_def, Ideal.hostUnary_sqrt_def, Ideal.hostNegf_def, Ideal.negf_def, Ideal.ofBits_def, Ideal.ofBits_zero_f32, zero_add]
  rfl

/-- The same for the relation rows. -/
theorem relation_direction (x1 : (⟨S1000x60, .f32⟩ : BufTy).Contents (Elt Ideal)) (x6 : (⟨S65536, .i32⟩ : BufTy).Contents (Elt Ideal)) (p : Fin 65536) (k : Fin 60) :
    val_main_v23 (F := Ideal) x1 x6 (ix2 p k) = direction (rowOf (val_main_v18 (F := Ideal) x1 x6) p) k := by
  simp only [val_main_v23_apply, val_main_v22_apply, val_main_v21_apply, val_main_v19_apply, val_main_call1_v2_apply, val_main_call1_v1_apply, val_main_call1_cst_apply, val_main_call1_v0_apply, val_main_v20_apply, val_main_cst_3_apply,
    at_idx_main_v22, at_idx_main_call1_v2, at_idx_main_call1_v1,
    Ideal.hostDivf_def, Ideal.divf_def, Ideal.mulf_def, Ideal.addf_def, Ideal.subf_def, Ideal.maximumf_def, Ideal.hostUnary_sqrt_def, Ideal.hostNegf_def, Ideal.negf_def, Ideal.ofBits_def, Ideal.ofBits_zero_f32, zero_add]
  rfl

/-- The same for the tail rows. -/
theorem tail_direction (x0 : (⟨S500000x60, .f32⟩ : BufTy).Contents (Elt Ideal)) (x7 : (⟨S65536, .i32⟩ : BufTy).Contents (Elt Ideal)) (p : Fin 65536) (k : Fin 60) :
    val_main_v35 (F := Ideal) x0 x7 (ix2 p k) = direction (rowOf (val_main_v30 (F := Ideal) x0 x7) p) k := by
  simp only [val_main_v35_apply, val_main_v34_apply, val_main_v33_apply, val_main_v31_apply, val_main_call2_v2_apply, val_main_call2_v1_apply, val_main_call2_cst_apply, val_main_call2_v0_apply, val_main_v32_apply, val_main_cst_6_apply,
    at_idx_main_v34, at_idx_main_call2_v2, at_idx_main_call2_v1,
    Ideal.hostDivf_def, Ideal.divf_def, Ideal.mulf_def, Ideal.addf_def, Ideal.subf_def, Ideal.maximumf_def, Ideal.hostUnary_sqrt_def, Ideal.hostNegf_def, Ideal.negf_def, Ideal.ofBits_def, Ideal.ofBits_zero_f32, zero_add]
  rfl

/-! ## The word rows' directions averaged under the mask -/

/-- The head's pooled words at `p`: the masked mean of the directions of the 24 gathered word rows at `p`. -/
theorem head_pooled (x2 : (⟨S100000x60, .f32⟩ : BufTy).Contents (Elt Ideal)) (x8 : (⟨S65536x24, .i32⟩ : BufTy).Contents (Elt Ideal)) (x11 : (⟨S65536x24, .i32⟩ : BufTy).Contents (Elt Ideal)) (p : Fin 65536) (k : Fin 60) :
    val_main_v57 (F := Ideal) x2 x8 x11 (ix2 p k) = pooled (wordsOf (val_main_v42 (F := Ideal) x2 x8) p) (maskOf x11 p) k := by
  simp only [val_main_v57_apply, val_main_v55_apply, val_main_cst_12_apply, val_main_v54_apply, val_main_v47_apply, val_main_v46_apply, val_main_v45_apply, val_main_v43_apply, val_main_call3_v2_apply, val_main_call3_v1_apply, val_main_call3_cst_apply, val_main_call3_v0_apply, val_main_v44_apply, val_main_cst_9_apply, val_main_v53_apply, val_main_v49_apply, val_main_v48_apply, val_main_v56_apply, val_main_v52_apply, val_main_v50_apply, val_main_cst_10_apply, val_main_v51_apply, val_main_cst_11_apply,
    at_idx_main_v55, at_idx_main_v46, at_idx_main_call3_v2, at_idx_main_call3_v1, at_idx_main_v53, at_idx_main_v49, at_idx_main_v56, at_idx_main_v50,
    Ideal.hostDivf_def, Ideal.divf_def, Ideal.mulf_def, Ideal.addf_def, Ideal.subf_def, Ideal.maximumf_def, Ideal.hostUnary_sqrt_def, Ideal.hostNegf_def, Ideal.negf_def, Ideal.ofBits_def, Ideal.ofBits_zero_f32, zero_add]
  rfl

/-- The same for the relation's words. -/
theorem relation_pooled (x2 : (⟨S100000x60, .f32⟩ : BufTy).Contents (Elt Ideal)) (x9 : (⟨S65536x24, .i32⟩ : BufTy).Contents (Elt Ideal)) (x12 : (⟨S65536x24, .i32⟩ : BufTy).Contents (Elt Ideal)) (p : Fin 65536) (k : Fin 60) :
    val_main_v80 (F := Ideal) x2 x9 x12 (ix2 p k) = pooled (wordsOf (val_main_v65 (F := Ideal) x2 x9) p) (maskOf x12 p) k := by
  simp only [val_main_v80_apply, val_main_v78_apply, val_main_cst_18_apply, val_main_v77_apply, val_main_v70_apply, val_main_v69_apply, val_main_v68_apply, val_main_v66_apply, val_main_call4_v2_apply, val_main_call4_v1_apply, val_main_call4_cst_apply, val_main_call4_v0_apply, val_main_v67_apply, val_main_cst_15_apply, val_main_v76_apply, val_main_v72_apply, val_main_v71_apply, val_main_v79_apply, val_main_v75_apply, val_main_v73_apply, val_main_cst_16_apply, val_main_v74_apply, val_main_cst_17_apply,
    at_idx_main_v78, at_idx_main_v69, at_idx_main_call4_v2, at_idx_main_call4_v1, at_idx_main_v76, at_idx_main_v72, at_idx_main_v79, at_idx_main_v73,
    Ideal.hostDivf_def, Ideal.divf_def, Ideal.mulf_def, Ideal.addf_def, Ideal.subf_def, Ideal.maximumf_def, Ideal.hostUnary_sqrt_def, Ideal.hostNegf_def, Ideal.negf_def, Ideal.ofBits_def, Ideal.ofBits_zero_f32, zero_add]
  rfl

/-- The same for the tail's words. -/
theorem tail_pooled (x2 : (⟨S100000x60, .f32⟩ : BufTy).Contents (Elt Ideal)) (x10 : (⟨S65536x24, .i32⟩ : BufTy).Contents (Elt Ideal)) (x13 : (⟨S65536x24, .i32⟩ : BufTy).Contents (Elt Ideal)) (p : Fin 65536) (k : Fin 60) :
    val_main_v103 (F := Ideal) x2 x10 x13 (ix2 p k) = pooled (wordsOf (val_main_v88 (F := Ideal) x2 x10) p) (maskOf x13 p) k := by
  simp only [val_main_v103_apply, val_main_v101_apply, val_main_cst_24_apply, val_main_v100_apply, val_main_v93_apply, val_main_v92_apply, val_main_v91_apply, val_main_v89_apply, val_main_call5_v2_apply, val_main_call5_v1_apply, val_main_call5_cst_apply, val_main_call5_v0_apply, val_main_v90_apply, val_main_cst_21_apply, val_main_v99_apply, val_main_v95_apply, val_main_v94_apply, val_main_v102_apply, val_main_v98_apply, val_main_v96_apply, val_main_cst_22_apply, val_main_v97_apply, val_main_cst_23_apply,
    at_idx_main_v101, at_idx_main_v92, at_idx_main_call5_v2, at_idx_main_call5_v1, at_idx_main_v99, at_idx_main_v95, at_idx_main_v102, at_idx_main_v96,
    Ideal.hostDivf_def, Ideal.divf_def, Ideal.mulf_def, Ideal.addf_def, Ideal.subf_def, Ideal.maximumf_def, Ideal.hostUnary_sqrt_def, Ideal.hostNegf_def, Ideal.negf_def, Ideal.ofBits_def, Ideal.ofBits_zero_f32, zero_add]
  rfl

/-! ## The score -/

/-- THE REFERENCE'S RESULT AT ROW `p`: minus the length of `head + relation − tail`, each of the three the
    gathered row's direction plus its pooled words, then the three gathered biases added one after the other. -/
theorem reference_score (x0 : (⟨S500000x60, .f32⟩ : BufTy).Contents (Elt Ideal)) (x1 : (⟨S1000x60, .f32⟩ : BufTy).Contents (Elt Ideal)) (x2 : (⟨S100000x60, .f32⟩ : BufTy).Contents (Elt Ideal)) (x3 : (⟨S500000x1, .f32⟩ : BufTy).Contents (Elt Ideal)) (x4 : (⟨S1000x1, .f32⟩ : BufTy).Contents (Elt Ideal)) (x5 : (⟨S65536, .i32⟩ : BufTy).Contents (Elt Ideal)) (x6 : (⟨S65536, .i32⟩ : BufTy).Contents (Elt Ideal)) (x7 : (⟨S65536, .i32⟩ : BufTy).Contents (Elt Ideal)) (x8 : (⟨S65536x24, .i32⟩ : BufTy).Contents (Elt Ideal)) (x9 : (⟨S65536x24, .i32⟩ : BufTy).Contents (Elt Ideal)) (x10 : (⟨S65536x24, .i32⟩ : BufTy).Contents (Elt Ideal)) (x11 : (⟨S65536x24, .i32⟩ : BufTy).Contents (Elt Ideal)) (x12 : (⟨S65536x24, .i32⟩ : BufTy).Contents (Elt Ideal)) (x13 : (⟨S65536x24, .i32⟩ : BufTy).Contents (Elt Ideal)) (p : Fin 65536) :
    val_main_v144 (F := Ideal) x0 x1 x2 x3 x4 x5 x6 x7 x8 x9 x10 x11 x12 x13 (ix1 p)
      = -(distance (embed (rowOf (val_main_v6 (F := Ideal) x0 x5) p) (wordsOf (val_main_v42 (F := Ideal) x2 x8) p) (maskOf x11 p))
                   (embed (rowOf (val_main_v18 (F := Ideal) x1 x6) p) (wordsOf (val_main_v65 (F := Ideal) x2 x9) p) (maskOf x12 p))
                   (embed (rowOf (val_main_v30 (F := Ideal) x0 x7) p) (wordsOf (val_main_v88 (F := Ideal) x2 x10) p) (maskOf x13 p)))
        + val_main_v119 (F := Ideal) x3 x5 (ix1 p) + val_main_v131 (F := Ideal) x3 x7 (ix1 p) + val_main_v143 (F := Ideal) x4 x6 (ix1 p) := by
  simp only [val_main_v144_apply, val_main_v132_apply, val_main_v120_apply, val_main_v108_apply, val_main_v107_apply, val_main_call6_v1_apply, val_main_call6_cst_apply, val_main_call6_v0_apply, val_main_v106_apply, val_main_v105_apply, val_main_v58_apply, val_main_v81_apply, val_main_v104_apply,
    at_idx_main_call6_v1,
    head_direction, relation_direction, tail_direction, head_pooled, relation_pooled, tail_pooled,
    Ideal.hostDivf_def, Ideal.divf_def, Ideal.mulf_def, Ideal.addf_def, Ideal.subf_def, Ideal.maximumf_def, Ideal.hostUnary_sqrt_def, Ideal.hostNegf_def, Ideal.negf_def, Ideal.ofBits_def, Ideal.ofBits_zero_f32, zero_add]
  rfl

end Cert.RefScore

end
-- ==== Proof.Bridge.lean ====
/-
  The two results are one function of the arguments.

  The kernel's result array holds, at row `p`, zero minus the translation distance of row `p`'s three vectors plus the
  sum of the row's three joined biases, all computed from the arrays the region staged (ArrayScore.lean); those arrays
  are the reference's gathered arrays of the same arguments (HostArrays.lean). The reference's result holds, at row
  `p`, the negated distance of the same three vectors with the three gathered biases added one after the other
  (RefScore.lean). The two numbers are equal by associativity of addition on the extended reals; no input needs to be
  finite for that.
-/
import proofs.«160819_j36352603193502_2_alg».proof.Proof.ArrayScore
import proofs.«160819_j36352603193502_2_alg».proof.Proof.HostArrays
import proofs.«160819_j36352603193502_2_alg».proof.Proof.RefScore

set_option maxRecDepth 16384

noncomputable section

open scoped BigOperators

namespace Cert.Bridge

open Idealize.ShloMosaic Idealize.ShloMosaic.TcCoe Idealize.SL.Sem Idealize.ShloMosaic.ValueIdx
open Cert.Score

/-- THE KERNEL'S RUN, READ: @main of the idealized kernel terminates with the result array at `ArrayScore.result` —
    at every row the score of that row of the staged arrays — and its fourteen arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v80) = Cert.ArrayScore.result m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)) := by
  open Cert.KernelIdeal Cert.KernelIdeal.Gen Cert.KernelIdeal.Frm in
  exact (θ_run defs _ _).mono (fun _ h c => ⟨((h c).1 10).trans (Cert.ArrayScore.final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).1 6).trans (((pointData m 0 c).arrAt_in 6 rfl _).trans ((arrays_eq m c 6).trans (V_main_arg11 m c))),
      ((h c).1 7).trans (((pointData m 0 c).arrAt_in 7 rfl _).trans ((arrays_eq m c 7).trans (V_main_arg12 m c))),
      ((h c).1 8).trans (((pointData m 0 c).arrAt_in 8 rfl _).trans ((arrays_eq m c 8).trans (V_main_arg13 m c)))⟩)
    (run_main m ρ)

/-- THE REFERENCE'S RESULT IS THE KERNEL'S: from memories that agree on the fourteen arguments, the reference's
    result term is the kernel's result array, row by row. -/
theorem reference_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    (Cert.ReferenceIdeal.Value.res_main_v144 (F := Ideal) m' c : Cert.KernelIdeal.S65536.Idx → EReal) = Cert.ArrayScore.result m c := by
  obtain ⟨h0, h1, h2, h3, h4, h5, h6, h7, h8, h9, h10, h11, h12, h13⟩ := hagree
  funext i
  obtain ⟨p, rfl⟩ : ∃ p : Fin 65536, i = ix1 p := ⟨i 0, eq_ix1 i⟩
  rw [Cert.ReferenceIdeal.Read.val_main_v144_eq, Cert.RefScore.reference_score, h0, h1, h2, h3, h4, h5, h6, h7, h8, h9, h10, h11, h12, h13]
  show _ = Cert.ArrayScore.rowScore _ _ _ _ _ _ _ _ _ _ p
  unfold Cert.ArrayScore.rowScore
  rw [Cert.HostArrays.bias_sum, Cert.HostArrays.head_rows, Cert.HostArrays.rel_rows, Cert.HostArrays.tail_rows,
    Cert.HostArrays.head_words, Cert.HostArrays.rel_words, Cert.HostArrays.tail_words,
    Cert.KernelIdeal.Frm.V_main_arg11, Cert.KernelIdeal.Frm.V_main_arg12, Cert.KernelIdeal.Frm.V_main_arg13]
  exact (biases_either_way _ _ _ _).symm

end Cert.Bridge

end
-- ==== Proof.lean ====
/-
  The certificate of a knowledge-graph triple scorer against its plain reference.

  Both programs gather, for each of 65536 (head, relation, tail) triples, the three embedding rows, three lists of 24
  word rows with a mask each, and three biases. Each row is divided by its length (guarded from below by 10⁻¹²), each
  word list is turned into the masked mean of its rows' directions, an entity's vector is its own direction plus its
  pooled words, and the score is minus the length of `head + relation − tail` plus the three biases. The kernel does
  the gathers on the host and everything else in one pipelined region, 256 triples per grid point, with the word table
  stored in a short float format and the biases joined into one array and summed; the reference does everything on
  the host. Read at the exact values (floats as extended reals, changes of format the identity) the two results are
  the same function of the arguments: the same gathers feed the same row-wise formula, and the two ways of adding the
  biases agree by associativity of addition. No finiteness of the inputs is used.

  The five claims: the three programs run to the end, fault nowhere and leave their arguments unchanged (for the two
  kernels by the run of the host line and the region, FrameBits.lean / FrameIdeal.lean; for the reference by its run
  with the result dropped); the idealized kernel is the kernel's own text read at the exact values (nothing was
  rewritten); and the idealized kernel and the idealized reference end with equal results (Bridge.lean).
-/
import proofs.«160819_j36352603193502_2_alg».proof.Defs
import proofs.«160819_j36352603193502_2_alg».proof.Proof.Gen.Kernel
import proofs.«160819_j36352603193502_2_alg».proof.Proof.Gen.Kernel.Skeleton
import proofs.«160819_j36352603193502_2_alg».proof.Proof.Gen.Kernel.Launch
import proofs.«160819_j36352603193502_2_alg».proof.Proof.Gen.Kernel.Points
import proofs.«160819_j36352603193502_2_alg».proof.Proof.Gen.KernelIdeal
import proofs.«160819_j36352603193502_2_alg».proof.Proof.Gen.KernelIdeal.Skeleton
import proofs.«160819_j36352603193502_2_alg».proof.Proof.Gen.KernelIdeal.Launch
import proofs.«160819_j36352603193502_2_alg».proof.Proof.Gen.KernelIdeal.Points
import proofs.«160819_j36352603193502_2_alg».proof.Proof.Gen.ReferenceIdeal
import proofs.«160819_j36352603193502_2_alg».proof.Proof.Gen.Pre_finite_inputs
import proofs.«160819_j36352603193502_2_alg».proof.Proof.Gen.ReferenceIdeal.Run
import proofs.«160819_j36352603193502_2_alg».proof.Proof.Gen.ReferenceIdeal.Read
import proofs.«160819_j36352603193502_2_alg».proof.Proof.FrameBits
import proofs.«160819_j36352603193502_2_alg».proof.Proof.FrameIdeal
import proofs.«160819_j36352603193502_2_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Frm.frame m ρ

/-- The kernel read at the exact values runs and keeps its arguments. -/
theorem frame_kernel_ideal : Cert.frame_KernelIdeal := fun m ρ _ => Cert.KernelIdeal.Frm.frame m ρ

/-- The reference runs and keeps its arguments: its run, with the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten when the kernel was printed for the exact values. -/
theorem preserves : Cert.preserves_Kernel_KernelIdeal := trivial

/-- From memories that agree on the arguments both idealized programs run, keep their arguments, and end with the
    same result: the kernel's result array is the row-wise score of the staged arrays, and the reference's result is
    that same function of the arguments. -/
theorem algebraic : Cert.algebraic_KernelIdeal_ReferenceIdeal := by
  intro m ρ m' ρ' _ hagree
  refine ⟨fun c => Cert.ArrayScore.result m c, Cert.Bridge.kernel_run m ρ, ?_⟩
  refine (θ_run Cert.ReferenceIdeal.defs _ _).mono (fun _ h c => ⟨(h c).1.trans ?_, (h c).2⟩)
    (Cert.ReferenceIdeal.Value.run (F := Ideal) m' ρ')
  exact Cert.Bridge.reference_result m m' c (hagree c)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
